-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x1 : Shape := ⟨2, ![800000, 1]⟩
abbrev S800000 : Shape := ⟨1, ![800000]⟩
abbrev S257x256 : Shape := ⟨2, ![257, 256]⟩
abbrev S256 : Shape := ⟨1, ![256]⟩
abbrev S256x256 : Shape := ⟨2, ![256, 256]⟩
abbrev S384x256 : Shape := ⟨2, ![384, 256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S257x256 : S_.BroadcastsInDim S257x256 (![] : Fin 0 → Fin S257x256.rank)
  reducesTo_S257x256_S_d0_1 : S257x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S384x256 : S_.BroadcastsInDim S384x256 (![] : Fin 0 → Fin S384x256.rank)
  reducesTo_S384x256_S_d0_1 : S384x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S256 .f32) (main_arg14 : FVec F S256x128 .f32) (main_arg15 : FVec F S128 .f32) (main_v48 : IVec S_ 1) (main_v49 : FVec F S384x256 .f32) (main_v50 : FVec F S384x256 .f32) : IVec S_ 1 :=
  let main_v51 : IVec S384x256 1 := cmpf .olt main_v49 main_v50
  let main_c_19 : IVec S_ 1 := constantI S_ 1 1#1
  let main_v52 : IVec S_ 1 := (fun x v => Host.reduce IntOp.andi x v reducesTo_S384x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x128 .f32 := Host.absf main_arg14
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg9 : FVec F S256 .f32) (main_arg10 : FVec F S256x256 .f32) (main_arg11 : FVec F S256 .f32) (main_arg12 : FVec F S384x256 .f32) (main_arg13 : FVec F S256 .f32) (main_arg14 : FVec F S256x128 .f32) (main_arg15 : FVec F S128 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S384x256 .f32 := Host.absf main_arg12
  let main_cst_18 : FVec F S_ .f32 := constant S_ .f32 0x7F800000#32
  let main_v50 : FVec F S384x256 .f32 := broadcastInDim S384x256 ![] bcast_S_S384x256 main_cst_18
  fn_part3 (F := F) main_arg13 main_arg14 main_arg15 main_v48 main_v49 main_v50

def fn_part1 {F : FTy → Type} [FloatOps F] (main_arg6 : FVec F S256x256 .f32) (main_arg7 : FVec F S256 .f32) (main_arg8 : FVec F S257x256 .f32) (main_arg9 : FVec F S256 .f32) (main_arg10 : FVec F S256x256 .f32) (main_arg11 : FVec F S256 .f32) (main_arg12 : FVec F S384x256 .f32) (main_arg13 : FVec F S256 .f32) (main_arg14 : FVec F S256x128 .f32) (main_arg15 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S257x256 .f32 := Host.absf main_arg8
  let main_cst_10 : FVec F S_ .f32 := constant S_ .f32 0x7F800000#32
  let main_v30 : FVec F S257x256 .f32 := broadcastInDim S257x256 ![] bcast_S_S257x256 main_cst_10
  let main_v31 : IVec S257x256 1 := cmpf .olt main_v29 main_v30
  let main_c_11 : IVec S_ 1 := constantI S_ 1 1#1
  let main_v32 : IVec S_ 1 := (fun x v => Host.reduce IntOp.andi x v reducesTo_S257x256_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : FVec F S800000x1 .f32) (main_arg2 : IVec S800000 32) (main_arg3 : IVec S800000 32) (main_arg4 : FVec F S257x256 .f32) (main_arg5 : FVec F S256 .f32) (main_arg6 : FVec F S256x256 .f32) (main_arg7 : FVec F S256 .f32) (main_arg8 : FVec F S257x256 .f32) (main_arg9 : FVec F S256 .f32) (main_arg10 : FVec F S256x256 .f32) (main_arg11 : FVec F S256 .f32) (main_arg12 : FVec F S384x256 .f32) (main_arg13 : FVec F S256 .f32) (main_arg14 : FVec F S256x128 .f32) (main_arg15 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x1 .f32 := Host.absf main_arg1
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S257x256 .f32 := Host.absf main_arg4
  let main_cst_2 : FVec F S_ .f32 := constant S_ .f32 0x7F800000#32
  let main_v10 : FVec F S257x256 .f32 := broadcastInDim S257x256 ![] bcast_S_S257x256 main_cst_2
  let main_v11 : IVec S257x256 1 := cmpf .olt main_v9 main_v10
  let main_c_3 : IVec S_ 1 := constantI S_ 1 1#1
  let main_v12 : IVec S_ 1 := (fun x v => Host.reduce IntOp.andi x v reducesTo_S257x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S800000x1 : Shape := ⟨2, ![800000, 1]⟩
abbrev S800000 : Shape := ⟨1, ![800000]⟩
abbrev S257x256 : Shape := ⟨2, ![257, 256]⟩
abbrev S256 : Shape := ⟨1, ![256]⟩
abbrev S256x256 : Shape := ⟨2, ![256, 256]⟩
abbrev S384x256 : Shape := ⟨2, ![384, 256]⟩
abbrev S256x128 : Shape := ⟨2, ![256, 128]⟩
abbrev S128 : Shape := ⟨1, ![128]⟩
abbrev S_ : Shape := ⟨0, ![]⟩
abbrev S800000x128 : Shape := ⟨2, ![800000, 128]⟩
abbrev S128x256 : Shape := ⟨2, ![128, 256]⟩
abbrev S1x256 : Shape := ⟨2, ![1, 256]⟩
abbrev S800000x256 : Shape := ⟨2, ![800000, 256]⟩
abbrev S4000x128 : Shape := ⟨2, ![4000, 128]⟩
abbrev S4000x1 : Shape := ⟨2, ![4000, 1]⟩
abbrev S4000x256 : Shape := ⟨2, ![4000, 256]⟩
abbrev S50000x256 : Shape := ⟨2, ![50000, 256]⟩
abbrev S5000x256 : Shape := ⟨2, ![5000, 256]⟩
abbrev S5000x128 : Shape := ⟨2, ![5000, 128]⟩
abbrev S1x128 : Shape := ⟨2, ![1, 128]⟩

abbrev nBuf : Space → Nat
  | .hbm => 66
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S800000x1, .f32⟩
  | .hbm, ⟨2, _⟩ => ⟨S800000, .i32⟩
  | .hbm, ⟨3, _⟩ => ⟨S800000, .i32⟩
  | .hbm, ⟨4, _⟩ => ⟨S257x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S257x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S384x256, .f32⟩
  | .hbm, ⟨13, _⟩ => ⟨S256, .f32⟩
  | .hbm, ⟨14, _⟩ => ⟨S256x128, .f32⟩
  | .hbm, ⟨15, _⟩ => ⟨S128, .f32⟩
  | .hbm, ⟨16, _⟩ => ⟨S50000x128, .bf16⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .bf16⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .bf16⟩
  | .hbm, ⟨35, _⟩ => ⟨S128x256, .f32⟩
  | .hbm, ⟨36, _⟩ => ⟨S128x256, .bf16⟩
  | .hbm, ⟨37, _⟩ => ⟨S128x256, .f32⟩
  | .hbm, ⟨38, _⟩ => ⟨S128x256, .bf16⟩
  | .hbm, ⟨39, _⟩ => ⟨S1x256, .f32⟩
  | .hbm, ⟨40, _⟩ => ⟨S256x256, .bf16⟩
  | .hbm, ⟨41, _⟩ => ⟨S128x256, .f32⟩
  | .hbm, ⟨42, _⟩ => ⟨S128x256, .bf16⟩
  | .hbm, ⟨43, _⟩ => ⟨S128x256, .f32⟩
  | .hbm, ⟨44, _⟩ => ⟨S128x256, .bf16⟩
  | .hbm, ⟨45, _⟩ => ⟨S1x256, .f32⟩
  | .hbm, ⟨46, _⟩ => ⟨S256x256, .bf16⟩
  | .hbm, ⟨47, _⟩ => ⟨S800000x256, .bf16⟩
  | .hbm, ⟨48, _⟩ => ⟨S800000x256, .bf16⟩
  | .hbm, ⟨49, _⟩ => ⟨S800000x256, .f32⟩
  | .hbm, ⟨50, _⟩ => ⟨S_, .f32⟩
  | .hbm, ⟨51, _⟩ => ⟨S50000x256, .f32⟩
  | .hbm, ⟨52, _⟩ => ⟨S800000x1, .i32⟩
  | .hbm, ⟨53, _⟩ => ⟨S50000x256, .f32⟩
  | .hbm, ⟨54, _⟩ => ⟨S800000x256, .f32⟩
  | .hbm, ⟨55, _⟩ => ⟨S_, .f32⟩
  | .hbm, ⟨56, _⟩ => ⟨S50000x256, .f32⟩
  | .hbm, ⟨57, _⟩ => ⟨S800000x1, .i32⟩
  | .hbm, ⟨58, _⟩ => ⟨S50000x256, .f32⟩
  | .hbm, ⟨59, _⟩ => ⟨S50000x256, .f32⟩
  | .hbm, ⟨60, _⟩ => ⟨S256x256, .f32⟩
  | .hbm, ⟨61, _⟩ => ⟨S256x256, .bf16⟩
  | .hbm, ⟨62, _⟩ => ⟨S128x256, .f32⟩
  | .hbm, ⟨63, _⟩ => ⟨S128x256, .bf16⟩
  | .hbm, ⟨64, _⟩ => ⟨S256x128, .bf16⟩
  | .hbm, ⟨65, _⟩ => ⟨S50000x128, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x1, .f32⟩
  | .local _ .vmem, ⟨5, _⟩ => ⟨S4000x1, .f32⟩
  | .local _ .vmem, ⟨6, _⟩ => ⟨S128x256, .bf16⟩
  | .local _ .vmem, ⟨7, _⟩ => ⟨S128x256, .bf16⟩
  | .local _ .vmem, ⟨8, _⟩ => ⟨S1x256, .f32⟩
  | .local _ .vmem, ⟨9, _⟩ => ⟨S256, .f32⟩
  | .local _ .vmem, ⟨10, _⟩ => ⟨S256x256, .bf16⟩
  | .local _ .vmem, ⟨11, _⟩ => ⟨S256, .f32⟩
  | .local _ .vmem, ⟨12, _⟩ => ⟨S128x256, .bf16⟩
  | .local _ .vmem, ⟨13, _⟩ => ⟨S128x256, .bf16⟩
  | .local _ .vmem, ⟨14, _⟩ => ⟨S1x256, .f32⟩
  | .local _ .vmem, ⟨15, _⟩ => ⟨S256, .f32⟩
  | .local _ .vmem, ⟨16, _⟩ => ⟨S256x256, .bf16⟩
  | .local _ .vmem, ⟨17, _⟩ => ⟨S256, .f32⟩
  | .local _ .vmem, ⟨18, _⟩ => ⟨S4000x256, .bf16⟩
  | .local _ .vmem, ⟨19, _⟩ => ⟨S4000x256, .bf16⟩
  | .local _ .vmem, ⟨20, _⟩ => ⟨S4000x256, .bf16⟩
  | .local _ .vmem, ⟨21, _⟩ => ⟨S4000x256, .bf16⟩
  | .local _ .vmem, ⟨22, _⟩ => ⟨S5000x256, .f32⟩
  | .local _ .vmem, ⟨23, _⟩ => ⟨S5000x256, .f32⟩
  | .local _ .vmem, ⟨24, _⟩ => ⟨S5000x128, .f32⟩
  | .local _ .vmem, ⟨25, _⟩ => ⟨S5000x128, .f32⟩
  | .local _ .vmem, ⟨26, _⟩ => ⟨S256x256, .bf16⟩
  | .local _ .vmem, ⟨27, _⟩ => ⟨S128x256, .bf16⟩
  | .local _ .vmem, ⟨28, _⟩ => ⟨S256, .f32⟩
  | .local _ .vmem, ⟨29, _⟩ => ⟨S256x128, .bf16⟩
  | .local _ .vmem, ⟨30, _⟩ => ⟨S128, .f32⟩
  | .local _ .vmem, ⟨31, _⟩ => ⟨S5000x128, .f32⟩
  | .local _ .vmem, ⟨32, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_1 : Ref sig .tc := ⟨.hbm, 26, rfl⟩
abbrev main_v8 : Ref sig .tc := ⟨.hbm, 27, rfl⟩
abbrev main_v9 : Ref sig .tc := ⟨.hbm, 28, rfl⟩
abbrev main_c_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27_0 : Ref sig .tc := ⟨.hbm, 47, rfl⟩
abbrev main_v27_1 : Ref sig .tc := ⟨.hbm, 48, rfl⟩
abbrev main_v28 : Ref sig .tc := ⟨.hbm, 49, rfl⟩
abbrev main_cst : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_3 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg3_0 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg7_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem3_0 : DmaSem sig := 27
abbrev cc1_sem4_0 : DmaSem sig := 28
abbrev cc1_sem5_0 : DmaSem sig := 29
abbrev cc1_sem6_0 : DmaSem sig := 30
abbrev cc1_sem7_0 : DmaSem sig := 31
abbrev cc1_sem7_1 : DmaSem sig := 32

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S4000x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4000x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S257x256_S128x256_0_0 : S257x256.Slices ![0, 0] S128x256
  slices_S257x256_S128x256_128_0 : S257x256.Slices ![128, 0] S128x256
  slices_S257x256_S1x256_256_0 : S257x256.Slices ![256, 0] S1x256
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256_S256_0 : ∀ a, (![0] : Fin 1 → Nat) a + S256.size a ≤ S256.size a
  h_S256 : 0 < S256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S4000x1_S4000x256 : S4000x1.Broadcasts S4000x256
  broadcasts_S1x256_S4000x256 : S1x256.Broadcasts S4000x256
  shapeCasts_S256_S1x256 : S256.ShapeCasts S1x256
  inb_S4000x256_S4000x256_0_0 : ∀ a, (![0, 0] : Fin 2 → Nat) a + S4000x256.size a ≤ S4000x256.size a
  h_S4000x256 : 0 < S4000x256.numel
  packedbf16_S4000x256_S4000x256_0_0 : (Rect.unit (s := S4000x256) ![0, 0] S4000x256.size inb_S4000x256_S4000x256_0_0).PackedRows (EltTy.packing .bf16)
  bcast_S_S50000x256 : S_.BroadcastsInDim S50000x256 (![] : Fin 0 → Fin S50000x256.rank)
  slices_S384x256_S256x256_0_0 : S384x256.Slices ![0, 0] S256x256
  slices_S384x256_S128x256_256_0 : S384x256.Slices ![256, 0] S128x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S5000x128_S5000x128_0_0 : ∀ a, (![0, 0] : Fin 2 → Nat) a + S5000x128.size a ≤ S5000x128.size a
  h_S5000x128 : 0 < S5000x128.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  broadcasts_S1x256_S5000x256 : S1x256.Broadcasts S5000x256
  shapeCasts_S128_S1x128 : S128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  dot_S4000x128_S128x256_S4000x256_1_0_0_1_n_n_wf : DotDims.WF S4000x128 S128x256 S4000x256 [1] [0] [0] [1] [] []
  dot_S4000x256_S256x256_S4000x256_1_0_0_1_n_n_wf : DotDims.WF S4000x256 S256x256 S4000x256 [1] [0] [0] [1] [] []
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .bf16 = 32 ∨ (Rect.block (s := S800000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .bf16 = 32 ∨ (Rect.block (s := S800000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S800000x1.size a
  hwx0_2 : ∀ i : grid0.Coords, EltTy.bits .f32 = 32 ∨ (Rect.block (s := S800000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x256.size a ≤ S128x256.size a
  hwx0_9 : ∀ i : grid0.Coords, EltTy.bits .bf16 = 32 ∨ (Rect.block (s := S128x256) S128x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x256.size a ≤ S128x256.size a
  hwx0_10 : ∀ i : grid0.Coords, EltTy.bits .bf16 = 32 ∨ (Rect.block (s := S128x256) S128x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S256x256.size a
  hwx0_13 : ∀ i : grid0.Coords, EltTy.bits .bf16 = 32 ∨ (Rect.block (s := S256x256) S256x256.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256.size a ≤ S256.size a
  hwx0_14 : ∀ i : grid0.Coords, EltTy.bits .f32 = 32 ∨ (Rect.block (s := S256) S256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S4000x256.size a ≤ S800000x256.size a
  hwx0_15 : ∀ i : grid0.Coords, EltTy.bits .bf16 = 32 ∨ (Rect.block (s := S800000x256) S4000x256.size (cc0_transform_15 i) (hinb0_15 i)).WholeWords (EltTy.packing .bf16)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S4000x256.size a ≤ S800000x256.size a
  hwx0_16 : ∀ i : grid0.Coords, EltTy.bits .bf16 = 32 ∨ (Rect.block (s := S800000x256) S4000x256.size (cc0_transform_16 i) (hinb0_16 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .bf16 = 32 ∨ (Rect.block (s := S128x256) S128x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .bf16 = 32 ∨ (Rect.block (s := S256x128) S256x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v7) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S128x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v24) S128x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v25) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg9) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v26) S256x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg11) S256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v27_0) S4000x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v27_1) S4000x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev win1_0 : Pipeline.Window sig grid1 :=
  Pipeline.Window.ofSpec (Memref.whole main_v36) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg15) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000x1 : Shape := ⟨2, ![800000, 1]⟩
abbrev S800000 : Shape := ⟨1, ![800000]⟩
abbrev S257x256 : Shape := ⟨2, ![257, 256]⟩
abbrev S256 : Shape := ⟨1, ![256]⟩
abbrev S256x256 : Shape := ⟨2, ![256, 256]⟩
abbrev S384x256 : Shape := ⟨2, ![384, 256]⟩
abbrev S256x128 : Shape := ⟨2, ![256, 128]⟩
abbrev S128 : Shape := ⟨1, ![128]⟩
abbrev S_ : Shape := ⟨0, ![]⟩
abbrev S800000x128 : Shape := ⟨2, ![800000, 128]⟩
abbrev S800000x257 : Shape := ⟨2, ![800000, 257]⟩
abbrev S800000x256 : Shape := ⟨2, ![800000, 256]⟩
abbrev S1x256 : Shape := ⟨2, ![1, 256]⟩
abbrev S50000x256 : Shape := ⟨2, ![50000, 256]⟩
abbrev S50000x384 : Shape := ⟨2, ![50000, 384]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x1, .f32⟩
  | .hbm, ⟨2, _⟩ => ⟨S800000, .i32⟩
  | .hbm, ⟨3, _⟩ => ⟨S800000, .i32⟩
  | .hbm, ⟨4, _⟩ => ⟨S257x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S257x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S384x256, .f32⟩
  | .hbm, ⟨13, _⟩ => ⟨S256, .f32⟩
  | .hbm, ⟨14, _⟩ => ⟨S256x128, .f32⟩
  | .hbm, ⟨15, _⟩ => ⟨S128, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S800000x257, .f32⟩
  | .hbm, ⟨35, _⟩ => ⟨S800000x256, .f32⟩
  | .hbm, ⟨36, _⟩ => ⟨S1x256, .f32⟩
  | .hbm, ⟨37, _⟩ => ⟨S800000x256, .f32⟩
  | .hbm, ⟨38, _⟩ => ⟨S800000x256, .f32⟩
  | .hbm, ⟨39, _⟩ => ⟨S_, .f32⟩
  | .hbm, ⟨40, _⟩ => ⟨S800000x256, .f32⟩
  | .hbm, ⟨41, _⟩ => ⟨S800000x256, .f32⟩
  | .hbm, ⟨42, _⟩ => ⟨S800000x256, .f32⟩
  | .hbm, ⟨43, _⟩ => ⟨S1x256, .f32⟩
  | .hbm, ⟨44, _⟩ => ⟨S800000x256, .f32⟩
  | .hbm, ⟨45, _⟩ => ⟨S800000x256, .f32⟩
  | .hbm, ⟨46, _⟩ => ⟨S_, .f32⟩
  | .hbm, ⟨47, _⟩ => ⟨S50000x256, .f32⟩
  | .hbm, ⟨48, _⟩ => ⟨S800000x1, .i32⟩
  | .hbm, ⟨49, _⟩ => ⟨S50000x256, .f32⟩
  | .hbm, ⟨50, _⟩ => ⟨S800000x257, .f32⟩
  | .hbm, ⟨51, _⟩ => ⟨S800000x256, .f32⟩
  | .hbm, ⟨52, _⟩ => ⟨S1x256, .f32⟩
  | .hbm, ⟨53, _⟩ => ⟨S800000x256, .f32⟩
  | .hbm, ⟨54, _⟩ => ⟨S800000x256, .f32⟩
  | .hbm, ⟨55, _⟩ => ⟨S_, .f32⟩
  | .hbm, ⟨56, _⟩ => ⟨S800000x256, .f32⟩
  | .hbm, ⟨57, _⟩ => ⟨S800000x256, .f32⟩
  | .hbm, ⟨58, _⟩ => ⟨S800000x256, .f32⟩
  | .hbm, ⟨59, _⟩ => ⟨S1x256, .f32⟩
  | .hbm, ⟨60, _⟩ => ⟨S800000x256, .f32⟩
  | .hbm, ⟨61, _⟩ => ⟨S800000x256, .f32⟩
  | .hbm, ⟨62, _⟩ => ⟨S_, .f32⟩
  | .hbm, ⟨63, _⟩ => ⟨S50000x256, .f32⟩
  | .hbm, ⟨64, _⟩ => ⟨S800000x1, .i32⟩
  | .hbm, ⟨65, _⟩ => ⟨S50000x256, .f32⟩
  | .hbm, ⟨66, _⟩ => ⟨S50000x256, .f32⟩
  | .hbm, ⟨67, _⟩ => ⟨S50000x384, .f32⟩
  | .hbm, ⟨68, _⟩ => ⟨S50000x256, .f32⟩
  | .hbm, ⟨69, _⟩ => ⟨S1x256, .f32⟩
  | .hbm, ⟨70, _⟩ => ⟨S50000x256, .f32⟩
  | .hbm, ⟨71, _⟩ => ⟨S50000x256, .f32⟩
  | .hbm, ⟨72, _⟩ => ⟨S_, .f32⟩
  | .hbm, ⟨73, _⟩ => ⟨S50000x256, .f32⟩
  | .hbm, ⟨74, _⟩ => ⟨S50000x256, .f32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call0_cst : Ref sig .tc := ⟨.hbm, 39, rfl⟩
abbrev main_call0_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_call1_cst : Ref sig .tc := ⟨.hbm, 55, rfl⟩
abbrev main_call1_v0 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_3 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_call2_cst : Ref sig .tc := ⟨.hbm, 72, rfl⟩
abbrev main_call2_v0 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x1_S800000x257_d1 : Shape.Concatenates [S800000x128, S800000x128, S800000x1] S800000x257 1
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  bcast_S_S50000x256 : S_.BroadcastsInDim S50000x256 (![] : Fin 0 → Fin S50000x256.rank)
  concatenates_S50000x256_S50000x128_S50000x384_d1 : Shape.Concatenates [S50000x256, S50000x128] S50000x384 1
  bcast_S1x256_S50000x256_0_1 : S1x256.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x257_S257x256_S800000x256_1_0_0_1_n_n_wf : DotDims.WF S800000x257 S257x256 S800000x256 [1] [0] [0] [1] [] []
  dot_S800000x256_S256x256_S800000x256_1_0_0_1_n_n_wf : DotDims.WF S800000x256 S256x256 S800000x256 [1] [0] [0] [1] [] []
  scatter_S50000x256_S800000x1_S800000x256_1_0_0_1_wf : ScatterDims.WF S50000x256 S800000x1 S800000x256 [1] [0] [0] 1
  dot_S50000x384_S384x256_S50000x256_1_0_0_1_n_n_wf : DotDims.WF S50000x384 S384x256 S50000x256 [1] [0] [0] [1] [] []
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x257_S257x256_S800000x256_1_0_0_1_n_n : DotDims S800000x257 S257x256 S800000x256 where
  lhsContracting := [1]
  rhsContracting := [0]
  lhsNonContracting := [0]
  rhsNonContracting := [1]
  lhsBatch := []
  rhsBatch := []
  wf := dot_S800000x257_S257x256_S800000x256_1_0_0_1_n_n_wf
def dot_S800000x256_S256x256_S800000x256_1_0_0_1_n_n : DotDims S800000x256 S256x256 S800000x256 where
  lhsContracting := [1]
  rhsContracting := [0]
  lhsNonContracting := [0]
  rhsNonContracting := [1]
  lhsBatch := []
  rhsBatch := []
  wf := dot_S800000x256_S256x256_S800000x256_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x384_S384x256_S50000x256_1_0_0_1_n_n : DotDims S50000x384 S384x256 S50000x256 where
  lhsContracting := [1]
  rhsContracting := [0]
  lhsNonContracting := [0]
  rhsNonContracting := [1]
  lhsBatch := []
  rhsBatch := []
  wf := dot_S50000x384_S384x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.HostSide.lean ====
/-
  The contents of the kernel program's buffers where its two regions are entered, as terms of the launch contents.

  Before the edge region the host gathers the rows of the (reformatted) node states named by the two index vectors, a
  negative index first moved up by the number of nodes, and cuts each first-layer weight matrix into its groups of rows.
  Between the regions it sums the two message arrays per node by scatter-adds into zero arrays, adds the two sums, and
  cuts the node perceptron's first weight matrix. No argument array is written by anything.
-/
import proofs.«116389_j22874995818875_2_alg».proof.Proof.KernelRun
import Idealize.ShloMosaic.Lib.StableHlo.Run
import Idealize.ShloMosaic.PureOps.Ideal

set_option maxRecDepth 16384
-- reading one buffer through a line of thirty-one operations unfolds the line once per operation
set_option maxHeartbeats 1600000

noncomputable section

namespace Cert.HostSide

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## Where the edge region is entered -/

theorem entry_from (c : Dev nD) :
    @Eq (FVec Ideal S800000x128 .bf16) (V1 m ρ c main_v7) (Host.gather gather_S50000x128_S800000x1_S800000x128_1_0_n_n_0_1_1128 (truncf .bf16 (W0 m ρ c (Proc.devRef .tc main_arg0)) bitsLt_bf16_f32) (broadcastInDim S800000x1 ![0] bcast_S800000_S800000x1_0 (select (cmpi .slt (W0 m ρ c (Proc.devRef .tc main_arg2)) (broadcastInDim S800000 ![] bcast_S_S800000 (constantI S_ 32 0#32))) (addi (W0 m ρ c (Proc.devRef .tc main_arg2)) (broadcastInDim S800000 ![] bcast_S_S800000 (constantI S_ 32 50000#32))) (W0 m ρ c (Proc.devRef .tc main_arg2))))) := by
  show StableHlo.after hostOps0 (W0 m ρ c) (Proc.devRef .tc main_v7) = _
  after_results
  <;> rfl
theorem entry_to (c : Dev nD) :
    @Eq (FVec Ideal S800000x128 .bf16) (V1 m ρ c main_v14) (Host.gather gather_S50000x128_S800000x1_S800000x128_1_0_n_n_0_1_1128 (truncf .bf16 (W0 m ρ c (Proc.devRef .tc main_arg0)) bitsLt_bf16_f32) (broadcastInDim S800000x1 ![0] bcast_S800000_S800000x1_0 (select (cmpi .slt (W0 m ρ c (Proc.devRef .tc main_arg3)) (broadcastInDim S800000 ![] bcast_S_S800000 (constantI S_ 32 0#32))) (addi (W0 m ρ c (Proc.devRef .tc main_arg3)) (broadcastInDim S800000 ![] bcast_S_S800000 (constantI S_ 32 50000#32))) (W0 m ρ c (Proc.devRef .tc main_arg3))))) := by
  show StableHlo.after hostOps0 (W0 m ρ c) (Proc.devRef .tc main_v14) = _
  after_results
  <;> rfl
theorem entry_feat (c : Dev nD) :
    @Eq (FVec Ideal S800000x1 .f32) (V1 m ρ c main_arg1) (W0 m ρ c (Proc.devRef .tc main_arg1)) := by
  show StableHlo.after hostOps0 (W0 m ρ c) (Proc.devRef .tc main_arg1) = _
  after_results
  <;> rfl
theorem entry_w1a (c : Dev nD) :
    @Eq (FVec Ideal S128x256 .bf16) (V1 m ρ c main_v16) (truncf .bf16 (extractStridedSlice S128x256 ![0, 0] (W0 m ρ c (Proc.devRef .tc main_arg4)) slices_S257x256_S128x256_0_0) bitsLt_bf16_f32) := by
  show StableHlo.after hostOps0 (W0 m ρ c) (Proc.devRef .tc main_v16) = _
  after_results
  <;> rfl
theorem entry_w1b (c : Dev nD) :
    @Eq (FVec Ideal S128x256 .bf16) (V1 m ρ c main_v18) (truncf .bf16 (extractStridedSlice S128x256 ![128, 0] (W0 m ρ c (Proc.devRef .tc main_arg4)) slices_S257x256_S128x256_128_0) bitsLt_bf16_f32) := by
  show StableHlo.after hostOps0 (W0 m ρ c) (Proc.devRef .tc main_v18) = _
  after_results
  <;> rfl
theorem entry_w1c (c : Dev nD) :
    @Eq (FVec Ideal S1x256 .f32) (V1 m ρ c main_v19) (extractStridedSlice S1x256 ![256, 0] (W0 m ρ c (Proc.devRef .tc main_arg4)) slices_S257x256_S1x256_256_0) := by
  show StableHlo.after hostOps0 (W0 m ρ c) (Proc.devRef .tc main_v19) = _
  after_results
  <;> rfl
theorem entry_b1 (c : Dev nD) :
    @Eq (FVec Ideal S256 .f32) (V1 m ρ c main_arg5) (W0 m ρ c (Proc.devRef .tc main_arg5)) := by
  show StableHlo.after hostOps0 (W0 m ρ c) (Proc.devRef .tc main_arg5) = _
  after_results
  <;> rfl
theorem entry_w2 (c : Dev nD) :
    @Eq (FVec Ideal S256x256 .bf16) (V1 m ρ c main_v20) (truncf .bf16 (W0 m ρ c (Proc.devRef .tc main_arg6)) bitsLt_bf16_f32) := by
  show StableHlo.after hostOps0 (W0 m ρ c) (Proc.devRef .tc main_v20) = _
  after_results
  <;> rfl
theorem entry_b2 (c : Dev nD) :
    @Eq (FVec Ideal S256 .f32) (V1 m ρ c main_arg7) (W0 m ρ c (Proc.devRef .tc main_arg7)) := by
  show StableHlo.after hostOps0 (W0 m ρ c) (Proc.devRef .tc main_arg7) = _
  after_results
  <;> rfl
theorem entry_rw1a (c : Dev nD) :
    @Eq (FVec Ideal S128x256 .bf16) (V1 m ρ c main_v22) (truncf .bf16 (extractStridedSlice S128x256 ![0, 0] (W0 m ρ c (Proc.devRef .tc main_arg8)) slices_S257x256_S128x256_0_0) bitsLt_bf16_f32) := by
  show StableHlo.after hostOps0 (W0 m ρ c) (Proc.devRef .tc main_v22) = _
  after_results
  <;> rfl
theorem entry_rw1b (c : Dev nD) :
    @Eq (FVec Ideal S128x256 .bf16) (V1 m ρ c main_v24) (truncf .bf16 (extractStridedSlice S128x256 ![128, 0] (W0 m ρ c (Proc.devRef .tc main_arg8)) slices_S257x256_S128x256_128_0) bitsLt_bf16_f32) := by
  show StableHlo.after hostOps0 (W0 m ρ c) (Proc.devRef .tc main_v24) = _
  after_results
  <;> rfl
theorem entry_rw1c (c : Dev nD) :
    @Eq (FVec Ideal S1x256 .f32) (V1 m ρ c main_v25) (extractStridedSlice S1x256 ![256, 0] (W0 m ρ c (Proc.devRef .tc main_arg8)) slices_S257x256_S1x256_256_0) := by
  show StableHlo.after hostOps0 (W0 m ρ c) (Proc.devRef .tc main_v25) = _
  after_results
  <;> rfl
theorem entry_rb1 (c : Dev nD) :
    @Eq (FVec Ideal S256 .f32) (V1 m ρ c main_arg9) (W0 m ρ c (Proc.devRef .tc main_arg9)) := by
  show StableHlo.after hostOps0 (W0 m ρ c) (Proc.devRef .tc main_arg9) = _
  after_results
  <;> rfl
theorem entry_rw2 (c : Dev nD) :
    @Eq (FVec Ideal S256x256 .bf16) (V1 m ρ c main_v26) (truncf .bf16 (W0 m ρ c (Proc.devRef .tc main_arg10)) bitsLt_bf16_f32) := by
  show StableHlo.after hostOps0 (W0 m ρ c) (Proc.devRef .tc main_v26) = _
  after_results
  <;> rfl
theorem entry_rb2 (c : Dev nD) :
    @Eq (FVec Ideal S256 .f32) (V1 m ρ c main_arg11) (W0 m ρ c (Proc.devRef .tc main_arg11)) := by
  show StableHlo.after hostOps0 (W0 m ρ c) (Proc.devRef .tc main_arg11) = _
  after_results
  <;> rfl

/-! ## An argument the edge region has no window on, after that region -/

theorem mid_arg2 (c : Dev nD) : W2 m ρ c (Proc.devRef .tc main_arg2) = W0 m ρ c (Proc.devRef .tc main_arg2) := by
  refine (W2_of_ne m ρ c main_arg2 (by decide)).trans ?_
  show StableHlo.after hostOps0 (W0 m ρ c) (Proc.devRef .tc main_arg2) = _
  after_results
  <;> rfl
theorem mid_arg3 (c : Dev nD) : W2 m ρ c (Proc.devRef .tc main_arg3) = W0 m ρ c (Proc.devRef .tc main_arg3) := by
  refine (W2_of_ne m ρ c main_arg3 (by decide)).trans ?_
  show StableHlo.after hostOps0 (W0 m ρ c) (Proc.devRef .tc main_arg3) = _
  after_results
  <;> rfl
theorem mid_arg12 (c : Dev nD) : W2 m ρ c (Proc.devRef .tc main_arg12) = W0 m ρ c (Proc.devRef .tc main_arg12) := by
  refine (W2_of_ne m ρ c main_arg12 (by decide)).trans ?_
  show StableHlo.after hostOps0 (W0 m ρ c) (Proc.devRef .tc main_arg12) = _
  after_results
  <;> rfl
theorem mid_arg14 (c : Dev nD) : W2 m ρ c (Proc.devRef .tc main_arg14) = W0 m ρ c (Proc.devRef .tc main_arg14) := by
  refine (W2_of_ne m ρ c main_arg14 (by decide)).trans ?_
  show StableHlo.after hostOps0 (W0 m ρ c) (Proc.devRef .tc main_arg14) = _
  after_results
  <;> rfl

/-! ## Where the node region is entered -/

theorem entry_agg (c : Dev nD) :
    @Eq (FVec Ideal S50000x256 .f32) (V3 m ρ c main_v36) (addf (Host.scatterAdd scatter_S50000x256_S800000x1_S800000x256_1_0_0_1 (broadcastInDim S50000x256 ![] bcast_S_S50000x256 (constant S_ .f32 0x00000000#32)) (broadcastInDim S800000x1 ![0] bcast_S800000_S800000x1_0 (W2 m ρ c (Proc.devRef .tc main_arg3))) (extf .f32 (W2 m ρ c (Proc.devRef .tc main_v27_0)) bitsLt_bf16_f32)) (Host.scatterAdd scatter_S50000x256_S800000x1_S800000x256_1_0_0_1 (broadcastInDim S50000x256 ![] bcast_S_S50000x256 (constant S_ .f32 0x00000000#32)) (broadcastInDim S800000x1 ![0] bcast_S800000_S800000x1_0 (W2 m ρ c (Proc.devRef .tc main_arg2))) (extf .f32 (W2 m ρ c (Proc.devRef .tc main_v27_1)) bitsLt_bf16_f32))) := by
  show StableHlo.after hostOps1 (W2 m ρ c) (Proc.devRef .tc main_v36) = _
  after_results
  <;> rfl
theorem entry_wn1a (c : Dev nD) :
    @Eq (FVec Ideal S256x256 .bf16) (V3 m ρ c main_v38) (truncf .bf16 (extractStridedSlice S256x256 ![0, 0] (W2 m ρ c (Proc.devRef .tc main_arg12)) slices_S384x256_S256x256_0_0) bitsLt_bf16_f32) := by
  show StableHlo.after hostOps1 (W2 m ρ c) (Proc.devRef .tc main_v38) = _
  after_results
  <;> rfl
theorem entry_wn1b (c : Dev nD) :
    @Eq (FVec Ideal S128x256 .bf16) (V3 m ρ c main_v40) (truncf .bf16 (extractStridedSlice S128x256 ![256, 0] (W2 m ρ c (Proc.devRef .tc main_arg12)) slices_S384x256_S128x256_256_0) bitsLt_bf16_f32) := by
  show StableHlo.after hostOps1 (W2 m ρ c) (Proc.devRef .tc main_v40) = _
  after_results
  <;> rfl
theorem entry_wn2 (c : Dev nD) :
    @Eq (FVec Ideal S256x128 .bf16) (V3 m ρ c main_v41) (truncf .bf16 (W2 m ρ c (Proc.devRef .tc main_arg14)) bitsLt_bf16_f32) := by
  show StableHlo.after hostOps1 (W2 m ρ c) (Proc.devRef .tc main_v41) = _
  after_results
  <;> rfl

/-- An argument the node region has a window on is, where that region is entered, what was launched: the region leaves
    its input arrays as it found them, and the whole run leaves the argument as launched. -/
theorem entry_states (c : Dev nD) : @Eq (FVec Ideal S50000x128 .f32) (V3 m ρ c main_arg0) (m ((c : Thread nD τ).loc main_arg0)) :=
  ((W4_arr m ρ c 1).trans (((dat1 (V3 m ρ) c).arrAt_in 1 rfl _).trans (A_eq1 (V3 m ρ) c 1))).symm.trans (W4_main_arg0 m ρ c)
theorem entry_bn1 (c : Dev nD) : @Eq (FVec Ideal S256 .f32) (V3 m ρ c main_arg13) (m ((c : Thread nD τ).loc main_arg13)) :=
  ((W4_arr m ρ c 4).trans (((dat1 (V3 m ρ) c).arrAt_in 4 rfl _).trans (A_eq1 (V3 m ρ) c 4))).symm.trans (W4_main_arg13 m ρ c)
theorem entry_bn2 (c : Dev nD) : @Eq (FVec Ideal S128 .f32) (V3 m ρ c main_arg15) (m ((c : Thread nD τ).loc main_arg15)) :=
  ((W4_arr m ρ c 6).trans (((dat1 (V3 m ρ) c).arrAt_in 6 rfl _).trans (A_eq1 (V3 m ρ) c 6))).symm.trans (W4_main_arg15 m ρ c)

end Cert.HostSide

end
-- ==== Proof.Spec.lean ====
/-
  One message-passing step, entry by entry, on the extended reals.

  Every network here is a two-layer perceptron with 256 hidden units: a row of hidden pre-activations z, the
  rectified row max(z, 0), a second affine map. What differs is how the pre-activations are written.

  * Split form. The input row is made of separately stored parts and the first weight matrix is stored as the
    matching groups of rows: z k = ((Σ_d a[e,d]·Wa[d,k] + Σ_d b[e,d]·Wb[d,k]) + ef[e]·wc[k]) + b1[k] for an edge
    (two 128-wide parts and one scalar feature), z k = (Σ_j g[n,j]·Wa[j,k] + Σ_j s[n,j]·Wb[j,k]) + b1[k] for a node
    (a 256-wide aggregate and the 128-wide state).
  * Joined form. The parts are first laid side by side in one row x and z k = Σ_j x[r,j]·W[j,k] + b1[k].

  The number of rows is a parameter, so that one definition speaks of a block of rows and of the whole array alike:
  an entry depends on its own row only. The rectifier's threshold is kept as the float word of zero, the same word
  wherever a program spells it.
-/
import Idealize.ShloMosaic.Lib.ValueIdx
import Idealize.ShloMosaic.PureOps.Ideal

noncomputable section

open scoped BigOperators

namespace Cert.Spec

open Idealize.ShloMosaic Idealize.ShloMosaic.ValueIdx

/-- The float word of zero, read as an extended real: the rectifier's threshold. -/
def zeroWord : EReal := Ideal.ofBits .f32 0x00000000#32

/-- The second layer at output column h: Σ_k max(z k, 0)·W[k,h] + b[h]. -/
def layer2 {C : ℕ} (z : Fin 256 → EReal) (W : (⟨2, ![256, C]⟩ : Shape).Idx → EReal)
    (b : (⟨1, ![C]⟩ : Shape).Idx → EReal) (h : Fin C) : EReal :=
  (∑ k : Fin 256, max (z k) zeroWord * W (ix2 k h)) + b (ix1 h)

/-- Hidden pre-activation k of edge e, split form. -/
def edgeHidSplit {E : ℕ} (a b : (⟨2, ![E, 128]⟩ : Shape).Idx → EReal) (ef : (⟨2, ![E, 1]⟩ : Shape).Idx → EReal)
    (Wa Wb : (⟨2, ![128, 256]⟩ : Shape).Idx → EReal) (wc : (⟨2, ![1, 256]⟩ : Shape).Idx → EReal)
    (b1 : (⟨1, ![256]⟩ : Shape).Idx → EReal) (e : Fin E) (k : Fin 256) : EReal :=
  (((∑ d : Fin 128, a (ix2 e d) * Wa (ix2 d k)) + (∑ d : Fin 128, b (ix2 e d) * Wb (ix2 d k)))
      + ef (ix2 e (0 : Fin 1)) * wc (ix2 (0 : Fin 1) k)) + b1 (ix1 k)

/-- The message of edge e at column h, split form. -/
def edgeSplit {E : ℕ} (a b : (⟨2, ![E, 128]⟩ : Shape).Idx → EReal) (ef : (⟨2, ![E, 1]⟩ : Shape).Idx → EReal)
    (Wa Wb : (⟨2, ![128, 256]⟩ : Shape).Idx → EReal) (wc : (⟨2, ![1, 256]⟩ : Shape).Idx → EReal)
    (b1 : (⟨1, ![256]⟩ : Shape).Idx → EReal) (W2 : (⟨2, ![256, 256]⟩ : Shape).Idx → EReal)
    (b2 : (⟨1, ![256]⟩ : Shape).Idx → EReal) (e : Fin E) (h : Fin 256) : EReal :=
  layer2 (edgeHidSplit a b ef Wa Wb wc b1 e) W2 b2 h

/-- Hidden pre-activation k of row r, joined form, for a joined row of width K. -/
def hidJoined {R K : ℕ} (x : (⟨2, ![R, K]⟩ : Shape).Idx → EReal) (W : (⟨2, ![K, 256]⟩ : Shape).Idx → EReal)
    (b1 : (⟨1, ![256]⟩ : Shape).Idx → EReal) (r : Fin R) (k : Fin 256) : EReal :=
  (∑ j : Fin K, x (ix2 r j) * W (ix2 j k)) + b1 (ix1 k)

/-- The message of edge e at column h, joined form: x is the 257-wide joined row. -/
def edgeJoined {E : ℕ} (x : (⟨2, ![E, 257]⟩ : Shape).Idx → EReal) (W1 : (⟨2, ![257, 256]⟩ : Shape).Idx → EReal)
    (b1 : (⟨1, ![256]⟩ : Shape).Idx → EReal) (W2 : (⟨2, ![256, 256]⟩ : Shape).Idx → EReal)
    (b2 : (⟨1, ![256]⟩ : Shape).Idx → EReal) (e : Fin E) (h : Fin 256) : EReal :=
  layer2 (hidJoined x W1 b1 e) W2 b2 h

/-- Hidden pre-activation k of node n, split form. -/
def nodeHidSplit {N : ℕ} (g : (⟨2, ![N, 256]⟩ : Shape).Idx → EReal) (s : (⟨2, ![N, 128]⟩ : Shape).Idx → EReal)
    (Wa : (⟨2, ![256, 256]⟩ : Shape).Idx → EReal) (Wb : (⟨2, ![128, 256]⟩ : Shape).Idx → EReal)
    (b1 : (⟨1, ![256]⟩ : Shape).Idx → EReal) (n : Fin N) (k : Fin 256) : EReal :=
  ((∑ j : Fin 256, g (ix2 n j) * Wa (ix2 j k)) + (∑ j : Fin 128, s (ix2 n j) * Wb (ix2 j k))) + b1 (ix1 k)

/-- The updated state of node n at column d, split form: the state plus the perceptron's output. -/
def nodeSplit {N : ℕ} (g : (⟨2, ![N, 256]⟩ : Shape).Idx → EReal) (s : (⟨2, ![N, 128]⟩ : Shape).Idx → EReal)
    (Wa : (⟨2, ![256, 256]⟩ : Shape).Idx → EReal) (Wb : (⟨2, ![128, 256]⟩ : Shape).Idx → EReal)
    (b1 : (⟨1, ![256]⟩ : Shape).Idx → EReal) (W2 : (⟨2, ![256, 128]⟩ : Shape).Idx → EReal)
    (b2 : (⟨1, ![128]⟩ : Shape).Idx → EReal) (n : Fin N) (d : Fin 128) : EReal :=
  s (ix2 n d) + layer2 (nodeHidSplit g s Wa Wb b1 n) W2 b2 d

/-- The updated state of node n at column d, joined form: x is the 384-wide joined row, s the state. -/
def nodeJoined {N : ℕ} (x : (⟨2, ![N, 384]⟩ : Shape).Idx → EReal) (s : (⟨2, ![N, 128]⟩ : Shape).Idx → EReal)
    (W1 : (⟨2, ![384, 256]⟩ : Shape).Idx → EReal) (b1 : (⟨1, ![256]⟩ : Shape).Idx → EReal)
    (W2 : (⟨2, ![256, 128]⟩ : Shape).Idx → EReal) (b2 : (⟨1, ![128]⟩ : Shape).Idx → EReal)
    (n : Fin N) (d : Fin 128) : EReal :=
  s (ix2 n d) + layer2 (hidJoined x W1 b1 n) W2 b2 d

end Cert.Spec

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.LibColumn.lean ====
/-
  Two keepdims column layouts read at an index given by coordinates.

  A length-a vector viewed as an a×1 column reads, at (i, 0), the vector at i; an a×1 column broadcast over b
  columns reads, at (p, c), the column's entry at row p.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Bodies.lean ====
/-
  What each kernel body stores, read at an index.

  Each of the three stored values is a two-layer perceptron of the loaded blocks in split form: the first layer adds
  two (for a node: two) matrix products into zero accumulators, for an edge also the rank-one product of the
  feature column and one weight row, and the bias row; the rectifier compares with a splat of the zero word; the
  second layer is one more product into a zero accumulator plus its bias row; a node adds the result to its state.
  Changes of float format are the identity on the extended reals, and every identity reshape drops out.
-/
import proofs.«116389_j22874995818875_2_alg».proof.Proof.Gen.KernelIdeal.Skeleton
import proofs.«116389_j22874995818875_2_alg».proof.Proof.Spec
import proofs.«116389_j22874995818875_2_alg».proof.Proof.LibPlainDot
import proofs.«116389_j22874995818875_2_alg».proof.Proof.LibColumn
import Idealize.ShloMosaic.Lib.ValueLayout
import Idealize.ShloMosaic.Lib.Pipeline.Value

noncomputable section

open scoped BigOperators

namespace Cert.Bodies

open Idealize.ShloMosaic Idealize.ShloMosaic.ValueIdx Cert.KernelIdeal Cert.KernelIdeal.Gen

/-! ## The dimension records are those of plain matrix products -/

theorem dot_4000_128_256 : dot_S4000x128_S128x256_S4000x256_1_0_0_1_n_n = DotDims.plain 4000 128 256 := rfl
theorem dot_4000_256_256 : dot_S4000x256_S256x256_S4000x256_1_0_0_1_n_n = DotDims.plain 4000 256 256 := rfl
theorem dot_5000_256_256 : dot_S5000x256_S256x256_S5000x256_1_0_0_1_n_n = DotDims.plain 5000 256 256 := rfl
theorem dot_5000_128_256 : dot_S5000x128_S128x256_S5000x256_1_0_0_1_n_n = DotDims.plain 5000 128 256 := rfl
theorem dot_5000_256_128 : dot_S5000x256_S256x128_S5000x128_1_0_0_1_n_n = DotDims.plain 5000 256 128 := rfl

/-! ## A product into a zero accumulator, as the bodies spell it -/

/-- A matrix product of plain dimension numbers into the zero accumulator, read at (p, q): Σ_l lhs(p,l)·rhs(l,q). -/
theorem product_apply {M K N : ℕ} {φ₁ φ₂ : FTy} (prec : Option ContractPrecision)
    (lhs : FVec Ideal ⟨2, ![M, K]⟩ φ₁) (rhs : FVec Ideal ⟨2, ![K, N]⟩ φ₂) (p : Fin M) (q : Fin N) :
    matmul (DotDims.plain M K N) prec lhs rhs (constant (F := Ideal) ⟨2, ![M, N]⟩ .f32 0x00000000#32) (ix2 p q)
      = ∑ l : Fin K, lhs (ix2 p l) * rhs (ix2 l q) :=
  LibPlainDot.matmul_zero_apply prec lhs rhs p q

/-! ## A bias row laid over every row of a block -/

/-- A length-b vector cast to one row and broadcast over a rows reads, at (p, c), the vector at c. -/
theorem biasRow_apply {a b : ℕ} (v : (⟨1, ![b]⟩ : Shape).Idx → EReal) (hc : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hc) hb (ix2 p c) = v (ix1 c) := by
  rw [broadcastTo_1b_ab_apply, shapeCast_a_1a_apply]

/-! ## The edge perceptron of one block -/

/-- The first layer of an edge block at (p, k). -/
theorem edgeHid_apply (A B : FVec Ideal S4000x128 .bf16) (ef : Vec Ideal S4000x1 .f32) (Wa Wb : FVec Ideal S128x256 .bf16)
    (wc : FVec Ideal S1x256 .f32) (b1 : Vec Ideal S256 .f32) (p : Fin 4000) (k : Fin 256) :
    addf (addf (addf (matmul dot_S4000x128_S128x256_S4000x256_1_0_0_1_n_n none A Wa (constant S4000x256 .f32 0x00000000#32))
          (matmul dot_S4000x128_S128x256_S4000x256_1_0_0_1_n_n none B Wb (constant S4000x256 .f32 0x00000000#32)))
        (mulf (broadcastTo S4000x256 ef broadcasts_S4000x1_S4000x256) (broadcastTo S4000x256 wc broadcasts_S1x256_S4000x256)))
      (broadcastTo S4000x256 (shapeCast S1x256 b1 shapeCasts_S256_S1x256) broadcasts_S1x256_S4000x256) (ix2 p k)
      = Spec.edgeHidSplit A B ef Wa Wb wc b1 p k := by
  show (matmul dot_S4000x128_S128x256_S4000x256_1_0_0_1_n_n none A Wa (constant S4000x256 .f32 0x00000000#32) (ix2 p k)
        + matmul dot_S4000x128_S128x256_S4000x256_1_0_0_1_n_n none B Wb (constant S4000x256 .f32 0x00000000#32) (ix2 p k)
        + broadcastTo S4000x256 ef broadcasts_S4000x1_S4000x256 (ix2 p k) * broadcastTo S4000x256 wc broadcasts_S1x256_S4000x256 (ix2 p k))
      + broadcastTo S4000x256 (shapeCast S1x256 b1 shapeCasts_S256_S1x256) broadcasts_S1x256_S4000x256 (ix2 p k) = _
  rw [dot_4000_128_256, product_apply, product_apply,
    LibColumn.broadcastTo_a1_ab_apply, broadcastTo_1b_ab_apply, biasRow_apply]
  rfl

/-- The second layer of a block with 256 hidden units at (p, q), over the rectified first layer H. -/
theorem edgeOut_apply (Z : FVec Ideal S4000x256 .f32) (W2 : FVec Ideal S256x256 .bf16) (b2 : Vec Ideal S256 .f32)
    (p : Fin 4000) (q : Fin 256) :
    addf (matmul dot_S4000x256_S256x256_S4000x256_1_0_0_1_n_n none
          (truncf .bf16 (maximumf Z (broadcast S4000x256 (Scalar.ofBits (F := Ideal) .f32 0x00000000#32))) bitsLt_bf16_f32) W2
          (constant S4000x256 .f32 0x00000000#32))
      (broadcastTo S4000x256 (shapeCast S1x256 b2 shapeCasts_S256_S1x256) broadcasts_S1x256_S4000x256) (ix2 p q)
      = Spec.layer2 (fun k => Z (ix2 p k)) W2 b2 q := by
  show matmul dot_S4000x256_S256x256_S4000x256_1_0_0_1_n_n none
          (truncf .bf16 (maximumf Z (broadcast S4000x256 (Scalar.ofBits (F := Ideal) .f32 0x00000000#32))) bitsLt_bf16_f32) W2
          (constant S4000x256 .f32 0x00000000#32) (ix2 p q)
      + broadcastTo S4000x256 (shapeCast S1x256 b2 shapeCasts_S256_S1x256) broadcasts_S1x256_S4000x256 (ix2 p q) = _
  rw [dot_4000_256_256, product_apply, biasRow_apply]
  rfl

/-- The forward message block: the stored value at (p, q) is the split-form perceptron of the loaded blocks. -/
theorem pay_forward (x0 x1 : Vec Ideal S4000x128 .bf16) (x2 : Vec Ideal S4000x1 .f32) (x3 x4 : Vec Ideal S128x256 .bf16)
    (x5 : Vec Ideal S1x256 .f32) (x6 : Vec Ideal S256 .f32) (x7 : Vec Ideal S256x256 .bf16) (x8 : Vec Ideal S256 .f32)
    (p : Fin 4000) (q : Fin 256) :
    k0_pay4 (F := Ideal) x0 x1 x2 x3 x4 x5 x6 x7 x8 (ix2 p q) = Spec.edgeSplit x0 x1 x2 x3 x4 x5 x6 x7 x8 p q := by
  unfold k0_pay4 k0_pay2 k0_pay3
  simp only [shapeCast_self]
  refine (edgeOut_apply _ x7 x8 p q).trans ?_
  unfold Spec.edgeSplit
  congr 1
  funext k
  exact edgeHid_apply x0 x1 x2 x3 x4 x5 x6 p k

/-- The reverse message block: the same perceptron with the two gathered blocks exchanged and the reverse weights. -/
theorem pay_reverse (v1 v3 : FVec Ideal S4000x128 .bf16) (v4 : Vec Ideal S4000x1 .f32) (v34 v36 : Vec Ideal S128x256 .bf16)
    (v38 : Vec Ideal S1x256 .f32) (v40 : Vec Ideal S256 .f32) (v41 : Vec Ideal S256x256 .bf16) (v43 : Vec Ideal S256 .f32)
    (p : Fin 4000) (q : Fin 256) :
    k0_pay1 (F := Ideal) v1 v3 v4 v34 v36 v38 v40 v41 v43 (ix2 p q) = Spec.edgeSplit v3 v1 v4 v34 v36 v38 v40 v41 v43 p q := by
  unfold k0_pay1
  simp only [shapeCast_self]
  refine (edgeOut_apply _ v41 v43 p q).trans ?_
  unfold Spec.edgeSplit
  congr 1
  funext k
  exact edgeHid_apply v3 v1 v4 v34 v36 v38 v40 p k

/-! ## The node perceptron of one block -/

/-- The first layer of a node block at (p, k). -/
theorem nodeHid_apply (G : FVec Ideal S5000x256 .bf16) (S : FVec Ideal S5000x128 .bf16) (Wa : FVec Ideal S256x256 .bf16)
    (Wb : FVec Ideal S128x256 .bf16) (b1 : Vec Ideal S256 .f32) (p : Fin 5000) (k : Fin 256) :
    addf (addf (matmul dot_S5000x256_S256x256_S5000x256_1_0_0_1_n_n none G Wa (constant S5000x256 .f32 0x00000000#32))
          (matmul dot_S5000x128_S128x256_S5000x256_1_0_0_1_n_n none S Wb (constant S5000x256 .f32 0x00000000#32)))
      (broadcastTo S5000x256 (shapeCast S1x256 b1 shapeCasts_S256_S1x256) broadcasts_S1x256_S5000x256) (ix2 p k)
      = Spec.nodeHidSplit G S Wa Wb b1 p k := by
  show (matmul dot_S5000x256_S256x256_S5000x256_1_0_0_1_n_n none G Wa (constant S5000x256 .f32 0x00000000#32) (ix2 p k)
        + matmul dot_S5000x128_S128x256_S5000x256_1_0_0_1_n_n none S Wb (constant S5000x256 .f32 0x00000000#32) (ix2 p k))
      + broadcastTo S5000x256 (shapeCast S1x256 b1 shapeCasts_S256_S1x256) broadcasts_S1x256_S5000x256 (ix2 p k) = _
  rw [dot_5000_256_256, dot_5000_128_256, product_apply, product_apply, biasRow_apply]
  rfl

/-- The second layer of a node block at (p, d). -/
theorem nodeOut_apply (Z : FVec Ideal S5000x256 .f32) (W2 : FVec Ideal S256x128 .bf16) (b2 : Vec Ideal S128 .f32)
    (p : Fin 5000) (d : Fin 128) :
    addf (matmul dot_S5000x256_S256x128_S5000x128_1_0_0_1_n_n none
          (truncf .bf16 (maximumf Z (broadcast S5000x256 (Scalar.ofBits (F := Ideal) .f32 0x00000000#32))) bitsLt_bf16_f32) W2
          (constant S5000x128 .f32 0x00000000#32))
      (broadcastTo S5000x128 (shapeCast S1x128 b2 shapeCasts_S128_S1x128) broadcasts_S1x128_S5000x128) (ix2 p d)
      = Spec.layer2 (fun k => Z (ix2 p k)) W2 b2 d := by
  show matmul dot_S5000x256_S256x128_S5000x128_1_0_0_1_n_n none
          (truncf .bf16 (maximumf Z (broadcast S5000x256 (Scalar.ofBits (F := Ideal) .f32 0x00000000#32))) bitsLt_bf16_f32) W2
          (constant S5000x128 .f32 0x00000000#32) (ix2 p d)
      + broadcastTo S5000x128 (shapeCast S1x128 b2 shapeCasts_S128_S1x128) broadcasts_S1x128_S5000x128 (ix2 p d) = _
  rw [dot_5000_256_128, product_apply, biasRow_apply]
  rfl

/-- The updated state block: the stored value at (p, d) is the state plus the split-form perceptron. -/
theorem pay_node (v0 : Vec Ideal S5000x256 .f32) (v3 : Vec Ideal S5000x128 .f32) (v5 : Vec Ideal S256x256 .bf16)
    (v7 : Vec Ideal S128x256 .bf16) (v9 : Vec Ideal S256 .f32) (v10 : Vec Ideal S256x128 .bf16) (v12 : Vec Ideal S128 .f32)
    (p : Fin 5000) (d : Fin 128) :
    k1_pay1 (F := Ideal) v0 v3 v5 v7 v9 v10 v12 (ix2 p d) = Spec.nodeSplit v0 v3 v5 v7 v9 v10 v12 p d := by
  unfold k1_pay1
  simp only [shapeCast_self]
  show v3 (ix2 p d) + _ = _
  unfold Spec.nodeSplit
  congr 1
  refine (nodeOut_apply _ v10 v12 p d).trans ?_
  congr 1
  funext k
  exact nodeHid_apply _ _ v5 v7 v9 p k

end Cert.Bodies

end
-- ==== Proof.Rows.lean ====
/-
  An entry of a perceptron's output depends on one row of its row-wise operands and on the values of its weights.

  If two families of operands agree where an entry looks — the input parts along the entry's own row, the weights and
  biases everywhere — the two entries are equal, whatever the numbers of rows of the two families. This is how a
  block of rows cut out of a tall array computes the same entries as the array, and how an operand given as a slice
  or a reformatted copy of another array is replaced by that array.
-/
import proofs.«116389_j22874995818875_2_alg».proof.Proof.Spec

noncomputable section

open scoped BigOperators

namespace Cert.Spec

open Idealize.ShloMosaic Idealize.ShloMosaic.ValueIdx

/-- Two second layers over pointwise equal hidden rows, weights and biases give equal entries. -/
theorem layer2_congr {C : ℕ} {z z' : Fin 256 → EReal} {W W' : (⟨2, ![256, C]⟩ : Shape).Idx → EReal}
    {b b' : (⟨1, ![C]⟩ : Shape).Idx → EReal} {h : Fin C}
    (hz : ∀ k, z k = z' k) (hW : ∀ k, W (ix2 k h) = W' (ix2 k h)) (hb : b (ix1 h) = b' (ix1 h)) :
    layer2 z W b h = layer2 z' W' b' h := by
  unfold layer2
  rw [hb]
  congr 1
  exact Finset.sum_congr rfl fun k _ => by rw [hz k, hW k]

/-- Split-form edge messages over operands that agree along the rows e and e' agree at (e, h) and (e', h). -/
theorem edgeSplit_congr {E E' : ℕ}
    {a b : (⟨2, ![E, 128]⟩ : Shape).Idx → EReal} {ef : (⟨2, ![E, 1]⟩ : Shape).Idx → EReal}
    {a' b' : (⟨2, ![E', 128]⟩ : Shape).Idx → EReal} {ef' : (⟨2, ![E', 1]⟩ : Shape).Idx → EReal}
    {Wa Wb Wa' Wb' : (⟨2, ![128, 256]⟩ : Shape).Idx → EReal} {wc wc' : (⟨2, ![1, 256]⟩ : Shape).Idx → EReal}
    {b1 b1' : (⟨1, ![256]⟩ : Shape).Idx → EReal} {W2 W2' : (⟨2, ![256, 256]⟩ : Shape).Idx → EReal}
    {b2 b2' : (⟨1, ![256]⟩ : Shape).Idx → EReal} {e : Fin E} {e' : Fin E'} {h : Fin 256}
    (ha : ∀ d, a (ix2 e d) = a' (ix2 e' d)) (hb : ∀ d, b (ix2 e d) = b' (ix2 e' d))
    (hef : ef (ix2 e (0 : Fin 1)) = ef' (ix2 e' (0 : Fin 1)))
    (hWa : ∀ d k, Wa (ix2 d k) = Wa' (ix2 d k)) (hWb : ∀ d k, Wb (ix2 d k) = Wb' (ix2 d k))
    (hwc : ∀ k, wc (ix2 (0 : Fin 1) k) = wc' (ix2 (0 : Fin 1) k)) (hb1 : ∀ k, b1 (ix1 k) = b1' (ix1 k))
    (hW2 : ∀ k, W2 (ix2 k h) = W2' (ix2 k h)) (hb2 : b2 (ix1 h) = b2' (ix1 h)) :
    edgeSplit a b ef Wa Wb wc b1 W2 b2 e h = edgeSplit a' b' ef' Wa' Wb' wc' b1' W2' b2' e' h := by
  unfold edgeSplit
  refine layer2_congr (fun k => ?_) hW2 hb2
  unfold edgeHidSplit
  rw [hef, hwc k, hb1 k]
  congr 3
  · exact Finset.sum_congr rfl fun d _ => by rw [ha d, hWa d k]
  · exact Finset.sum_congr rfl fun d _ => by rw [hb d, hWb d k]

/-- Split-form node updates over operands that agree along the rows n and n' agree at (n, d) and (n', d). -/
theorem nodeSplit_congr {N N' : ℕ}
    {g : (⟨2, ![N, 256]⟩ : Shape).Idx → EReal} {s : (⟨2, ![N, 128]⟩ : Shape).Idx → EReal}
    {g' : (⟨2, ![N', 256]⟩ : Shape).Idx → EReal} {s' : (⟨2, ![N', 128]⟩ : Shape).Idx → EReal}
    {Wa Wa' : (⟨2, ![256, 256]⟩ : Shape).Idx → EReal} {Wb Wb' : (⟨2, ![128, 256]⟩ : Shape).Idx → EReal}
    {b1 b1' : (⟨1, ![256]⟩ : Shape).Idx → EReal} {W2 W2' : (⟨2, ![256, 128]⟩ : Shape).Idx → EReal}
    {b2 b2' : (⟨1, ![128]⟩ : Shape).Idx → EReal} {n : Fin N} {n' : Fin N'} {d : Fin 128}
    (hg : ∀ j, g (ix2 n j) = g' (ix2 n' j)) (hs : ∀ j, s (ix2 n j) = s' (ix2 n' j))
    (hWa : ∀ j k, Wa (ix2 j k) = Wa' (ix2 j k)) (hWb : ∀ j k, Wb (ix2 j k) = Wb' (ix2 j k))
    (hb1 : ∀ k, b1 (ix1 k) = b1' (ix1 k)) (hW2 : ∀ k, W2 (ix2 k d) = W2' (ix2 k d)) (hb2 : b2 (ix1 d) = b2' (ix1 d)) :
    nodeSplit g s Wa Wb b1 W2 b2 n d = nodeSplit g' s' Wa' Wb' b1' W2' b2' n' d := by
  unfold nodeSplit
  rw [hs d]
  congr 1
  refine layer2_congr (fun k => ?_) hW2 hb2
  unfold nodeHidSplit
  rw [hb1 k]
  congr 2
  · exact Finset.sum_congr rfl fun j _ => by rw [hg j, hWa j k]
  · exact Finset.sum_congr rfl fun j _ => by rw [hs j, hWb j k]

end Cert.Spec

end
-- ==== Proof.EdgeRegion.lean ====
/-
  The edge region: what its two output arrays hold when it ends, for ANY contents of its input arrays at entry.

  The grid has 200 points; point t works on rows 4000·t … 4000·t + 3999 of the three row-wise inputs (the two gathered
  state arrays and the feature column) and of both outputs, and on the whole of every weight and bias. What point t
  writes back is therefore rows 4000·t … of ONE function of the input arrays: the split-form perceptron, whose entry
  (e, h) looks at row e only. The 200 blocks tile the 800000 rows, so each output array ends as that function.
-/
import proofs.«116389_j22874995818875_2_alg».proof.Proof.Gen.KernelIdeal.Frame
import proofs.«116389_j22874995818875_2_alg».proof.Proof.Bodies
import proofs.«116389_j22874995818875_2_alg».proof.Proof.Rows
import Idealize.ShloMosaic.Lib.Pipeline.Value
import Idealize.ShloMosaic.Lib.Tactic

set_option maxRecDepth 16384

noncomputable section

open scoped BigOperators

namespace Cert.EdgeRegion

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: a row-wise window's block row is the point, every other block index is 0. -/
theorem idx_facts0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 1) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 1) = 0
    ∧ win0_13.index t (0 : Fin 2) = 0
    ∧ win0_13.index t (1 : Fin 2) = 0
    ∧ win0_14.index t (0 : Fin 1) = 0
    ∧ win0_15.index t (0 : Fin 2) = t.val
    ∧ win0_15.index t (1 : Fin 2) = 0
    ∧ win0_16.index t (0 : Fin 2) = t.val
    ∧ win0_16.index t (1 : Fin 2) = 0 :=
  (by decide +kernel : ∀ t : Fin grid0.N, _)

/-- Window 0's block at a point: rows t·4000 … of its array. -/
theorem blk0_0 (c : Dev nD) (t : Fin cfg0.N) (p : Fin 4000) (d : Fin 128) (r : Fin 800000) (hr : r.val = t.val * 4000 + p.val) :
    (iblk0 V c 0 t : S4000x128.Idx → EReal) (ix2 p d) = (V c main_v7 : S800000x128.Idx → EReal) (ix2 r d) := by
  have hi := idx_facts0 t
  unfold iblk0
  rw [View.read_apply]
  show (V c main_v7 : S800000x128.Idx → EReal) _ = _
  congr 1
  funext a
  apply Fin.ext
  match a with
  | ⟨0, _⟩ => show win0_0.index t (0 : Fin 2) * 4000 + 1 * p.val = r.val; omega
  | ⟨1, _⟩ => show win0_0.index t (1 : Fin 2) * 128 + 1 * d.val = d.val; omega

/-- Window 1's block at a point: rows t·4000 … of its array. -/
theorem blk0_1 (c : Dev nD) (t : Fin cfg0.N) (p : Fin 4000) (d : Fin 128) (r : Fin 800000) (hr : r.val = t.val * 4000 + p.val) :
    (iblk0 V c 1 t : S4000x128.Idx → EReal) (ix2 p d) = (V c main_v14 : S800000x128.Idx → EReal) (ix2 r d) := by
  have hi := idx_facts0 t
  unfold iblk0
  rw [View.read_apply]
  show (V c main_v14 : S800000x128.Idx → EReal) _ = _
  congr 1
  funext a
  apply Fin.ext
  match a with
  | ⟨0, _⟩ => show win0_1.index t (0 : Fin 2) * 4000 + 1 * p.val = r.val; omega
  | ⟨1, _⟩ => show win0_1.index t (1 : Fin 2) * 128 + 1 * d.val = d.val; omega

/-- Window 2's block at a point: rows t·4000 … of its array. -/
theorem blk0_2 (c : Dev nD) (t : Fin cfg0.N) (p : Fin 4000) (d : Fin 1) (r : Fin 800000) (hr : r.val = t.val * 4000 + p.val) :
    (iblk0 V c 2 t : S4000x1.Idx → EReal) (ix2 p d) = (V c main_arg1 : S800000x1.Idx → EReal) (ix2 r d) := by
  have hi := idx_facts0 t
  unfold iblk0
  rw [View.read_apply]
  show (V c main_arg1 : S800000x1.Idx → EReal) _ = _
  congr 1
  funext a
  apply Fin.ext
  match a with
  | ⟨0, _⟩ => show win0_2.index t (0 : Fin 2) * 4000 + 1 * p.val = r.val; omega
  | ⟨1, _⟩ => show win0_2.index t (1 : Fin 2) * 1 + 1 * d.val = d.val; omega

/-- Window 3's block at a point is its whole array. -/
theorem blk0_3 (c : Dev nD) (t : Fin cfg0.N) (p : Fin 128) (d : Fin 256) :
    (iblk0 V c 3 t : S128x256.Idx → EReal) (ix2 p d) = (V c main_v16 : S128x256.Idx → EReal) (ix2 p d) := by
  have hi := idx_facts0 t
  unfold iblk0
  rw [View.read_apply]
  show (V c main_v16 : S128x256.Idx → EReal) _ = _
  congr 1
  funext a
  apply Fin.ext
  match a with
  | ⟨0, _⟩ => show win0_3.index t (0 : Fin 2) * 128 + 1 * p.val = p.val; omega
  | ⟨1, _⟩ => show win0_3.index t (1 : Fin 2) * 256 + 1 * d.val = d.val; omega

/-- Window 4's block at a point is its whole array. -/
theorem blk0_4 (c : Dev nD) (t : Fin cfg0.N) (p : Fin 128) (d : Fin 256) :
    (iblk0 V c 4 t : S128x256.Idx → EReal) (ix2 p d) = (V c main_v18 : S128x256.Idx → EReal) (ix2 p d) := by
  have hi := idx_facts0 t
  unfold iblk0
  rw [View.read_apply]
  show (V c main_v18 : S128x256.Idx → EReal) _ = _
  congr 1
  funext a
  apply Fin.ext
  match a with
  | ⟨0, _⟩ => show win0_4.index t (0 : Fin 2) * 128 + 1 * p.val = p.val; omega
  | ⟨1, _⟩ => show win0_4.index t (1 : Fin 2) * 256 + 1 * d.val = d.val; omega

/-- Window 5's block at a point is its whole array. -/
theorem blk0_5 (c : Dev nD) (t : Fin cfg0.N) (p : Fin 1) (d : Fin 256) :
    (iblk0 V c 5 t : S1x256.Idx → EReal) (ix2 p d) = (V c main_v19 : S1x256.Idx → EReal) (ix2 p d) := by
  have hi := idx_facts0 t
  unfold iblk0
  rw [View.read_apply]
  show (V c main_v19 : S1x256.Idx → EReal) _ = _
  congr 1
  funext a
  apply Fin.ext
  match a with
  | ⟨0, _⟩ => show win0_5.index t (0 : Fin 2) * 1 + 1 * p.val = p.val; omega
  | ⟨1, _⟩ => show win0_5.index t (1 : Fin 2) * 256 + 1 * d.val = d.val; omega

/-- Window 6's block at a point is its whole array. -/
theorem blk0_6 (c : Dev nD) (t : Fin cfg0.N) (k : Fin 256) :
    (iblk0 V c 6 t : S256.Idx → EReal) (ix1 k) = (V c main_arg5 : S256.Idx → EReal) (ix1 k) := by
  have hi := idx_facts0 t
  unfold iblk0
  rw [View.read_apply]
  show (V c main_arg5 : S256.Idx → EReal) _ = _
  congr 1
  funext a
  apply Fin.ext
  match a with
  | ⟨0, _⟩ => show win0_6.index t (0 : Fin 1) * 256 + 1 * k.val = k.val; omega

/-- Window 7's block at a point is its whole array. -/
theorem blk0_7 (c : Dev nD) (t : Fin cfg0.N) (p : Fin 256) (d : Fin 256) :
    (iblk0 V c 7 t : S256x256.Idx → EReal) (ix2 p d) = (V c main_v20 : S256x256.Idx → EReal) (ix2 p d) := by
  have hi := idx_facts0 t
  unfold iblk0
  rw [View.read_apply]
  show (V c main_v20 : S256x256.Idx → EReal) _ = _
  congr 1
  funext a
  apply Fin.ext
  match a with
  | ⟨0, _⟩ => show win0_7.index t (0 : Fin 2) * 256 + 1 * p.val = p.val; omega
  | ⟨1, _⟩ => show win0_7.index t (1 : Fin 2) * 256 + 1 * d.val = d.val; omega

/-- Window 8's block at a point is its whole array. -/
theorem blk0_8 (c : Dev nD) (t : Fin cfg0.N) (k : Fin 256) :
    (iblk0 V c 8 t : S256.Idx → EReal) (ix1 k) = (V c main_arg7 : S256.Idx → EReal) (ix1 k) := by
  have hi := idx_facts0 t
  unfold iblk0
  rw [View.read_apply]
  show (V c main_arg7 : S256.Idx → EReal) _ = _
  congr 1
  funext a
  apply Fin.ext
  match a with
  | ⟨0, _⟩ => show win0_8.index t (0 : Fin 1) * 256 + 1 * k.val = k.val; omega

/-- The forward messages as one function of the region's input arrays. -/
def fwdArr (c : Dev nD) : S800000x256.Idx → EReal := fun i =>
  Spec.edgeSplit (V c main_v7 : S800000x128.Idx → EReal) (V c main_v14 : S800000x128.Idx → EReal)
    (V c main_arg1 : S800000x1.Idx → EReal) (V c main_v16 : S128x256.Idx → EReal) (V c main_v18 : S128x256.Idx → EReal)
    (V c main_v19 : S1x256.Idx → EReal) (V c main_arg5 : S256.Idx → EReal) (V c main_v20 : S256x256.Idx → EReal)
    (V c main_arg7 : S256.Idx → EReal) (i 0) (i 1)

/-- What point t stores into the forward window's buffer, at an index of the block, is the function at the index's place in the array. -/
theorem fwd_at (c : Dev nD) (t : Fin cfg0.N) (y : S4000x256.Idx) :
    k0_pay4 (F := Ideal) (iblk0 V c 0 t) (iblk0 V c 1 t) (iblk0 V c 2 t) (iblk0 V c 3 t) (iblk0 V c 4 t) (iblk0 V c 5 t)
        (iblk0 V c 6 t) (iblk0 V c 7 t) (iblk0 V c 8 t) y
      = fwdArr V c (((cfg0.win 15).blk t).view.emb y) := by
  obtain ⟨p, q, rfl⟩ : ∃ (p : Fin 4000) (q : Fin 256), y = ix2 p q := ⟨y 0, y 1, eq_ix2 y⟩
  have hi := idx_facts0 t
  refine (Bodies.pay_forward (iblk0 V c 0 t) (iblk0 V c 1 t) (iblk0 V c 2 t) (iblk0 V c 3 t) (iblk0 V c 4 t) (iblk0 V c 5 t)
    (iblk0 V c 6 t) (iblk0 V c 7 t) (iblk0 V c 8 t) p q).trans ?_
  have hr : ((((cfg0.win 15).blk t).view.emb (ix2 p q) : S800000x256.Idx) 0).val = t.val * 4000 + p.val := by
    show win0_15.index t (0 : Fin 2) * 4000 + 1 * p.val = _; omega
  have hq : (((cfg0.win 15).blk t).view.emb (ix2 p q) : S800000x256.Idx) 1 = q :=
    Fin.ext (by show win0_15.index t (1 : Fin 2) * 256 + 1 * q.val = q.val; omega)
  unfold fwdArr
  rw [hq]
  exact Spec.edgeSplit_congr (fun d => blk0_0 V c t p d _ hr) (fun d => blk0_1 V c t p d _ hr)
    (blk0_2 V c t p 0 _ hr) (fun d k => blk0_3 V c t d k) (fun d k => blk0_4 V c t d k) (fun k => blk0_5 V c t 0 k)
    (fun k => blk0_6 V c t k) (fun k => blk0_7 V c t k q) (blk0_8 V c t q)

/-- What point t writes back of the forward window is block t of the function. -/
theorem flushed_fwd (c : Dev nD) (t : Fin cfg0.N) :
    (dat0 V c).flushed 15 t = ((cfg0.win 15).blk t).view.read (Elt Ideal) (fwdArr V c) := by
  show (cfg0.win 15).cut (grid0.coords t) ((dat0 V c).after 15 t) = _
  rw [after0_15]
  unfold out0_15
  rw [View.canon_unit_zero hz2]
  simp only [View.ld_unit_zero (S := S4000x128) hz2, View.ld_unit_zero (S := S4000x1) hz2, View.ld_unit_zero (S := S128x256) hz2,
    View.ld_unit_zero (S := S1x256) hz2, View.ld_unit_zero (S := S256) hz1, View.ld_unit_zero (S := S256x256) hz2]
  funext y
  rw [View.read_apply]
  exact fwd_at V c t y

/-- An index of the output array is in point t's block iff each coordinate is in the block's range. -/
theorem mem_blk_fwd (t : Fin cfg0.N) (i : S800000x256.Idx) :
    i ∈ ((cfg0.win 15).blk t).view.set ↔ ∀ a : Fin 2, win0_15.index t a * S4000x256.size a ≤ (i a).val ∧ (i a).val < win0_15.index t a * S4000x256.size a + S4000x256.size a := by
  show i ∈ ((View.whole main_v27_0).slice (win0_15.rect t)).set ↔ _
  rw [View.set_slice_whole, Rect.mem_set_unit]
  exact Iff.rfl

/-- Row r of the output lies in the block of point r / 4000. -/
theorem cover_fwd (i : S800000x256.Idx) : ∃ t : Fin cfg0.N, (cfg0.win 15).flush t = true ∧ i ∈ ((cfg0.win 15).blk t).view.set := by
  have hi0 : (i 0).val < 800000 := (i 0).isLt
  have hi1 : (i 1).val < 256 := (i 1).isLt
  have hN : cfg0.N = 200 := N_0
  refine ⟨⟨(i 0).val / 4000, by rw [hN]; omega⟩, flush0_15 _, ?_⟩
  have hi := idx_facts0 ⟨(i 0).val / 4000, by rw [hN]; omega⟩
  rw [mem_blk_fwd]
  intro a
  match a with
  | ⟨0, _⟩ =>
    show win0_15.index ⟨(i 0).val / 4000, _⟩ (0 : Fin 2) * 4000 ≤ (i 0).val ∧ (i 0).val < win0_15.index ⟨(i 0).val / 4000, _⟩ (0 : Fin 2) * 4000 + 4000
    have : (⟨(i 0).val / 4000, by rw [hN]; omega⟩ : Fin cfg0.N).val = (i 0).val / 4000 := rfl
    omega
  | ⟨1, _⟩ =>
    show win0_15.index ⟨(i 0).val / 4000, _⟩ (1 : Fin 2) * 256 ≤ (i 1).val ∧ (i 1).val < win0_15.index ⟨(i 0).val / 4000, _⟩ (1 : Fin 2) * 256 + 256
    omega

/-- THE FORWARD MESSAGES: when the region ends, the first output array is the split-form perceptron of the input arrays. -/
theorem final_fwd (c : Dev nD) : (dat0 V c).arrAt 15 cfg0.N = fwdArr V c :=
  (dat0 V c).arrAt_eq_of_cover 15 (fwdArr V c) (fun t _ => flushed_fwd V c t) (cover_fwd)

/-! ## The reverse window -/

/-- The body passes the two gathered blocks on through identity reshapes. -/
theorem pass_first (x : Vec Ideal S4000x128 .bf16) : k0_pay2 (F := Ideal) x = x := shapeCast_self _ _
theorem pass_second (x : Vec Ideal S4000x128 .bf16) : k0_pay3 (F := Ideal) x = x := shapeCast_self _ _

/-- Window 9's block at a point is its whole array. -/
theorem blk0_9 (c : Dev nD) (t : Fin cfg0.N) (p : Fin 128) (d : Fin 256) :
    (iblk0 V c 9 t : S128x256.Idx → EReal) (ix2 p d) = (V c main_v22 : S128x256.Idx → EReal) (ix2 p d) := by
  have hi := idx_facts0 t
  unfold iblk0
  rw [View.read_apply]
  show (V c main_v22 : S128x256.Idx → EReal) _ = _
  congr 1
  funext a
  apply Fin.ext
  match a with
  | ⟨0, _⟩ => show win0_9.index t (0 : Fin 2) * 128 + 1 * p.val = p.val; omega
  | ⟨1, _⟩ => show win0_9.index t (1 : Fin 2) * 256 + 1 * d.val = d.val; omega

/-- Window 10's block at a point is its whole array. -/
theorem blk0_10 (c : Dev nD) (t : Fin cfg0.N) (p : Fin 128) (d : Fin 256) :
    (iblk0 V c 10 t : S128x256.Idx → EReal) (ix2 p d) = (V c main_v24 : S128x256.Idx → EReal) (ix2 p d) := by
  have hi := idx_facts0 t
  unfold iblk0
  rw [View.read_apply]
  show (V c main_v24 : S128x256.Idx → EReal) _ = _
  congr 1
  funext a
  apply Fin.ext
  match a with
  | ⟨0, _⟩ => show win0_10.index t (0 : Fin 2) * 128 + 1 * p.val = p.val; omega
  | ⟨1, _⟩ => show win0_10.index t (1 : Fin 2) * 256 + 1 * d.val = d.val; omega

/-- Window 11's block at a point is its whole array. -/
theorem blk0_11 (c : Dev nD) (t : Fin cfg0.N) (p : Fin 1) (d : Fin 256) :
    (iblk0 V c 11 t : S1x256.Idx → EReal) (ix2 p d) = (V c main_v25 : S1x256.Idx → EReal) (ix2 p d) := by
  have hi := idx_facts0 t
  unfold iblk0
  rw [View.read_apply]
  show (V c main_v25 : S1x256.Idx → EReal) _ = _
  congr 1
  funext a
  apply Fin.ext
  match a with
  | ⟨0, _⟩ => show win0_11.index t (0 : Fin 2) * 1 + 1 * p.val = p.val; omega
  | ⟨1, _⟩ => show win0_11.index t (1 : Fin 2) * 256 + 1 * d.val = d.val; omega

/-- Window 12's block at a point is its whole array. -/
theorem blk0_12 (c : Dev nD) (t : Fin cfg0.N) (k : Fin 256) :
    (iblk0 V c 12 t : S256.Idx → EReal) (ix1 k) = (V c main_arg9 : S256.Idx → EReal) (ix1 k) := by
  have hi := idx_facts0 t
  unfold iblk0
  rw [View.read_apply]
  show (V c main_arg9 : S256.Idx → EReal) _ = _
  congr 1
  funext a
  apply Fin.ext
  match a with
  | ⟨0, _⟩ => show win0_12.index t (0 : Fin 1) * 256 + 1 * k.val = k.val; omega

/-- Window 13's block at a point is its whole array. -/
theorem blk0_13 (c : Dev nD) (t : Fin cfg0.N) (p : Fin 256) (d : Fin 256) :
    (iblk0 V c 13 t : S256x256.Idx → EReal) (ix2 p d) = (V c main_v26 : S256x256.Idx → EReal) (ix2 p d) := by
  have hi := idx_facts0 t
  unfold iblk0
  rw [View.read_apply]
  show (V c main_v26 : S256x256.Idx → EReal) _ = _
  congr 1
  funext a
  apply Fin.ext
  match a with
  | ⟨0, _⟩ => show win0_13.index t (0 : Fin 2) * 256 + 1 * p.val = p.val; omega
  | ⟨1, _⟩ => show win0_13.index t (1 : Fin 2) * 256 + 1 * d.val = d.val; omega

/-- Window 14's block at a point is its whole array. -/
theorem blk0_14 (c : Dev nD) (t : Fin cfg0.N) (k : Fin 256) :
    (iblk0 V c 14 t : S256.Idx → EReal) (ix1 k) = (V c main_arg11 : S256.Idx → EReal) (ix1 k) := by
  have hi := idx_facts0 t
  unfold iblk0
  rw [View.read_apply]
  show (V c main_arg11 : S256.Idx → EReal) _ = _
  congr 1
  funext a
  apply Fin.ext
  match a with
  | ⟨0, _⟩ => show win0_14.index t (0 : Fin 1) * 256 + 1 * k.val = k.val; omega

/-- The reverse messages as one function of the region's input arrays: the two gathered arrays exchanged, the reverse weights. -/
def revArr (c : Dev nD) : S800000x256.Idx → EReal := fun i =>
  Spec.edgeSplit (V c main_v14 : S800000x128.Idx → EReal) (V c main_v7 : S800000x128.Idx → EReal)
    (V c main_arg1 : S800000x1.Idx → EReal) (V c main_v22 : S128x256.Idx → EReal) (V c main_v24 : S128x256.Idx → EReal)
    (V c main_v25 : S1x256.Idx → EReal) (V c main_arg9 : S256.Idx → EReal) (V c main_v26 : S256x256.Idx → EReal)
    (V c main_arg11 : S256.Idx → EReal) (i 0) (i 1)

/-- What point t stores into the reverse window's buffer, at an index of the block, is the function at the index's place in the array. -/
theorem rev_at (c : Dev nD) (t : Fin cfg0.N) (y : S4000x256.Idx) :
    k0_pay1 (F := Ideal) (k0_pay2 (iblk0 V c 0 t)) (k0_pay3 (iblk0 V c 1 t)) (iblk0 V c 2 t) (iblk0 V c 9 t) (iblk0 V c 10 t)
        (iblk0 V c 11 t) (iblk0 V c 12 t) (iblk0 V c 13 t) (iblk0 V c 14 t) y
      = revArr V c (((cfg0.win 16).blk t).view.emb y) := by
  obtain ⟨p, q, rfl⟩ : ∃ (p : Fin 4000) (q : Fin 256), y = ix2 p q := ⟨y 0, y 1, eq_ix2 y⟩
  have hi := idx_facts0 t
  refine (Bodies.pay_reverse (k0_pay2 (iblk0 V c 0 t)) (k0_pay3 (iblk0 V c 1 t)) (iblk0 V c 2 t) (iblk0 V c 9 t) (iblk0 V c 10 t)
    (iblk0 V c 11 t) (iblk0 V c 12 t) (iblk0 V c 13 t) (iblk0 V c 14 t) p q).trans ?_
  have hr : ((((cfg0.win 16).blk t).view.emb (ix2 p q) : S800000x256.Idx) 0).val = t.val * 4000 + p.val := by
    show win0_16.index t (0 : Fin 2) * 4000 + 1 * p.val = _; omega
  have hq : (((cfg0.win 16).blk t).view.emb (ix2 p q) : S800000x256.Idx) 1 = q :=
    Fin.ext (by show win0_16.index t (1 : Fin 2) * 256 + 1 * q.val = q.val; omega)
  unfold revArr
  rw [hq]
  exact Spec.edgeSplit_congr
    (fun d => (congrFun (pass_second (iblk0 V c 1 t)) (ix2 p d)).trans (blk0_1 V c t p d _ hr))
    (fun d => (congrFun (pass_first (iblk0 V c 0 t)) (ix2 p d)).trans (blk0_0 V c t p d _ hr))
    (blk0_2 V c t p 0 _ hr) (fun d k => blk0_9 V c t d k) (fun d k => blk0_10 V c t d k) (fun k => blk0_11 V c t 0 k)
    (fun k => blk0_12 V c t k) (fun k => blk0_13 V c t k q) (blk0_14 V c t q)

/-- What point t writes back of the reverse window is block t of the function. -/
theorem flushed_rev (c : Dev nD) (t : Fin cfg0.N) :
    (dat0 V c).flushed 16 t = ((cfg0.win 16).blk t).view.read (Elt Ideal) (revArr V c) := by
  show (cfg0.win 16).cut (grid0.coords t) ((dat0 V c).after 16 t) = _
  rw [after0_16]
  unfold out0_16
  rw [View.canon_unit_zero hz2]
  simp only [View.ld_unit_zero (S := S4000x128) hz2, View.ld_unit_zero (S := S4000x1) hz2, View.ld_unit_zero (S := S128x256) hz2,
    View.ld_unit_zero (S := S1x256) hz2, View.ld_unit_zero (S := S256) hz1, View.ld_unit_zero (S := S256x256) hz2]
  funext y
  rw [View.read_apply]
  exact rev_at V c t y

/-- An index of the second output array is in point t's block iff each coordinate is in the block's range. -/
theorem mem_blk_rev (t : Fin cfg0.N) (i : S800000x256.Idx) :
    i ∈ ((cfg0.win 16).blk t).view.set ↔ ∀ a : Fin 2, win0_16.index t a * S4000x256.size a ≤ (i a).val ∧ (i a).val < win0_16.index t a * S4000x256.size a + S4000x256.size a := by
  show i ∈ ((View.whole main_v27_1).slice (win0_16.rect t)).set ↔ _
  rw [View.set_slice_whole, Rect.mem_set_unit]
  exact Iff.rfl

/-- Row r of the second output lies in the block of point r / 4000. -/
theorem cover_rev (i : S800000x256.Idx) : ∃ t : Fin cfg0.N, (cfg0.win 16).flush t = true ∧ i ∈ ((cfg0.win 16).blk t).view.set := by
  have hi0 : (i 0).val < 800000 := (i 0).isLt
  have hi1 : (i 1).val < 256 := (i 1).isLt
  have hN : cfg0.N = 200 := N_0
  refine ⟨⟨(i 0).val / 4000, by rw [hN]; omega⟩, flush0_16 _, ?_⟩
  have hi := idx_facts0 ⟨(i 0).val / 4000, by rw [hN]; omega⟩
  rw [mem_blk_rev]
  intro a
  match a with
  | ⟨0, _⟩ =>
    show win0_16.index ⟨(i 0).val / 4000, _⟩ (0 : Fin 2) * 4000 ≤ (i 0).val ∧ (i 0).val < win0_16.index ⟨(i 0).val / 4000, _⟩ (0 : Fin 2) * 4000 + 4000
    have : (⟨(i 0).val / 4000, by rw [hN]; omega⟩ : Fin cfg0.N).val = (i 0).val / 4000 := rfl
    omega
  | ⟨1, _⟩ =>
    show win0_16.index ⟨(i 0).val / 4000, _⟩ (1 : Fin 2) * 256 ≤ (i 1).val ∧ (i 1).val < win0_16.index ⟨(i 0).val / 4000, _⟩ (1 : Fin 2) * 256 + 256
    omega

/-- THE REVERSE MESSAGES: when the region ends, the second output array is the split-form perceptron of the input arrays,
    the gathered arrays exchanged. -/
theorem final_rev (c : Dev nD) : (dat0 V c).arrAt 16 cfg0.N = revArr V c :=
  (dat0 V c).arrAt_eq_of_cover 16 (revArr V c) (fun t _ => flushed_rev V c t) (cover_rev)

end Cert.EdgeRegion

end
-- ==== Proof.NodeRegion.lean ====
/-
  The node region: what its output array holds when it ends, for ANY contents of its input arrays at entry.

  The grid has 10 points; point t works on rows 5000·t … 5000·t + 4999 of the aggregate, of the node states and of the
  output, and on the whole of every weight and bias. What point t writes back is rows 5000·t … of ONE function of the
  input arrays: the state plus the split-form perceptron of (aggregate, state), whose entry (n, d) looks at row n only.
  The 10 blocks tile the 50000 rows, so the output array ends as that function.
-/
import proofs.«116389_j22874995818875_2_alg».proof.Proof.Gen.KernelIdeal.Frame
import proofs.«116389_j22874995818875_2_alg».proof.Proof.Bodies
import proofs.«116389_j22874995818875_2_alg».proof.Proof.Rows
import Idealize.ShloMosaic.Lib.Pipeline.Value
import Idealize.ShloMosaic.Lib.Tactic

set_option maxRecDepth 16384

noncomputable section

open scoped BigOperators

namespace Cert.NodeRegion

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: a row-wise window's block row is the point, every other block index is 0. -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 1) = 0
    ∧ win1_5.index t (0 : Fin 2) = 0
    ∧ win1_5.index t (1 : Fin 2) = 0
    ∧ win1_6.index t (0 : Fin 1) = 0
    ∧ win1_7.index t (0 : Fin 2) = t.val
    ∧ win1_7.index t (1 : Fin 2) = 0 :=
  (by decide +kernel : ∀ t : Fin grid1.N, _)

/-- Window 0's block at a point: rows t·5000 … of its array. -/
theorem blk1_0 (c : Dev nD) (t : Fin cfg1.N) (p : Fin 5000) (d : Fin 256) (r : Fin 50000) (hr : r.val = t.val * 5000 + p.val) :
    (iblk1 V c 0 t : S5000x256.Idx → EReal) (ix2 p d) = (V c main_v36 : S50000x256.Idx → EReal) (ix2 r d) := by
  have hi := idx_facts1 t
  unfold iblk1
  rw [View.read_apply]
  show (V c main_v36 : S50000x256.Idx → EReal) _ = _
  congr 1
  funext a
  apply Fin.ext
  match a with
  | ⟨0, _⟩ => show win1_0.index t (0 : Fin 2) * 5000 + 1 * p.val = r.val; omega
  | ⟨1, _⟩ => show win1_0.index t (1 : Fin 2) * 256 + 1 * d.val = d.val; omega

/-- Window 1's block at a point: rows t·5000 … of its array. -/
theorem blk1_1 (c : Dev nD) (t : Fin cfg1.N) (p : Fin 5000) (d : Fin 128) (r : Fin 50000) (hr : r.val = t.val * 5000 + p.val) :
    (iblk1 V c 1 t : S5000x128.Idx → EReal) (ix2 p d) = (V c main_arg0 : S50000x128.Idx → EReal) (ix2 r d) := by
  have hi := idx_facts1 t
  unfold iblk1
  rw [View.read_apply]
  show (V c main_arg0 : S50000x128.Idx → EReal) _ = _
  congr 1
  funext a
  apply Fin.ext
  match a with
  | ⟨0, _⟩ => show win1_1.index t (0 : Fin 2) * 5000 + 1 * p.val = r.val; omega
  | ⟨1, _⟩ => show win1_1.index t (1 : Fin 2) * 128 + 1 * d.val = d.val; omega

/-- Window 2's block at a point is its whole array. -/
theorem blk1_2 (c : Dev nD) (t : Fin cfg1.N) (p : Fin 256) (d : Fin 256) :
    (iblk1 V c 2 t : S256x256.Idx → EReal) (ix2 p d) = (V c main_v38 : S256x256.Idx → EReal) (ix2 p d) := by
  have hi := idx_facts1 t
  unfold iblk1
  rw [View.read_apply]
  show (V c main_v38 : S256x256.Idx → EReal) _ = _
  congr 1
  funext a
  apply Fin.ext
  match a with
  | ⟨0, _⟩ => show win1_2.index t (0 : Fin 2) * 256 + 1 * p.val = p.val; omega
  | ⟨1, _⟩ => show win1_2.index t (1 : Fin 2) * 256 + 1 * d.val = d.val; omega

/-- Window 3's block at a point is its whole array. -/
theorem blk1_3 (c : Dev nD) (t : Fin cfg1.N) (p : Fin 128) (d : Fin 256) :
    (iblk1 V c 3 t : S128x256.Idx → EReal) (ix2 p d) = (V c main_v40 : S128x256.Idx → EReal) (ix2 p d) := by
  have hi := idx_facts1 t
  unfold iblk1
  rw [View.read_apply]
  show (V c main_v40 : S128x256.Idx → EReal) _ = _
  congr 1
  funext a
  apply Fin.ext
  match a with
  | ⟨0, _⟩ => show win1_3.index t (0 : Fin 2) * 128 + 1 * p.val = p.val; omega
  | ⟨1, _⟩ => show win1_3.index t (1 : Fin 2) * 256 + 1 * d.val = d.val; omega

/-- Window 4's block at a point is its whole array. -/
theorem blk1_4 (c : Dev nD) (t : Fin cfg1.N) (k : Fin 256) :
    (iblk1 V c 4 t : S256.Idx → EReal) (ix1 k) = (V c main_arg13 : S256.Idx → EReal) (ix1 k) := by
  have hi := idx_facts1 t
  unfold iblk1
  rw [View.read_apply]
  show (V c main_arg13 : S256.Idx → EReal) _ = _
  congr 1
  funext a
  apply Fin.ext
  match a with
  | ⟨0, _⟩ => show win1_4.index t (0 : Fin 1) * 256 + 1 * k.val = k.val; omega

/-- Window 5's block at a point is its whole array. -/
theorem blk1_5 (c : Dev nD) (t : Fin cfg1.N) (p : Fin 256) (d : Fin 128) :
    (iblk1 V c 5 t : S256x128.Idx → EReal) (ix2 p d) = (V c main_v41 : S256x128.Idx → EReal) (ix2 p d) := by
  have hi := idx_facts1 t
  unfold iblk1
  rw [View.read_apply]
  show (V c main_v41 : S256x128.Idx → EReal) _ = _
  congr 1
  funext a
  apply Fin.ext
  match a with
  | ⟨0, _⟩ => show win1_5.index t (0 : Fin 2) * 256 + 1 * p.val = p.val; omega
  | ⟨1, _⟩ => show win1_5.index t (1 : Fin 2) * 128 + 1 * d.val = d.val; omega

/-- Window 6's block at a point is its whole array. -/
theorem blk1_6 (c : Dev nD) (t : Fin cfg1.N) (k : Fin 128) :
    (iblk1 V c 6 t : S128.Idx → EReal) (ix1 k) = (V c main_arg15 : S128.Idx → EReal) (ix1 k) := by
  have hi := idx_facts1 t
  unfold iblk1
  rw [View.read_apply]
  show (V c main_arg15 : S128.Idx → EReal) _ = _
  congr 1
  funext a
  apply Fin.ext
  match a with
  | ⟨0, _⟩ => show win1_6.index t (0 : Fin 1) * 128 + 1 * k.val = k.val; omega

/-- The updated states as one function of the region's input arrays. -/
def outArr (c : Dev nD) : S50000x128.Idx → EReal := fun i =>
  Spec.nodeSplit (V c main_v36 : S50000x256.Idx → EReal) (V c main_arg0 : S50000x128.Idx → EReal)
    (V c main_v38 : S256x256.Idx → EReal) (V c main_v40 : S128x256.Idx → EReal) (V c main_arg13 : S256.Idx → EReal)
    (V c main_v41 : S256x128.Idx → EReal) (V c main_arg15 : S128.Idx → EReal) (i 0) (i 1)

/-- What point t stores into the output window's buffer, at an index of the block, is the function at the index's place in the array. -/
theorem out_at (c : Dev nD) (t : Fin cfg1.N) (y : S5000x128.Idx) :
    k1_pay1 (F := Ideal) (iblk1 V c 0 t) (iblk1 V c 1 t) (iblk1 V c 2 t) (iblk1 V c 3 t) (iblk1 V c 4 t) (iblk1 V c 5 t)
        (iblk1 V c 6 t) y
      = outArr V c (((cfg1.win 7).blk t).view.emb y) := by
  obtain ⟨p, q, rfl⟩ : ∃ (p : Fin 5000) (q : Fin 128), y = ix2 p q := ⟨y 0, y 1, eq_ix2 y⟩
  have hi := idx_facts1 t
  refine (Bodies.pay_node (iblk1 V c 0 t) (iblk1 V c 1 t) (iblk1 V c 2 t) (iblk1 V c 3 t) (iblk1 V c 4 t) (iblk1 V c 5 t)
    (iblk1 V c 6 t) p q).trans ?_
  have hr : ((((cfg1.win 7).blk t).view.emb (ix2 p q) : S50000x128.Idx) 0).val = t.val * 5000 + p.val := by
    show win1_7.index t (0 : Fin 2) * 5000 + 1 * p.val = _; omega
  have hq : (((cfg1.win 7).blk t).view.emb (ix2 p q) : S50000x128.Idx) 1 = q :=
    Fin.ext (by show win1_7.index t (1 : Fin 2) * 128 + 1 * q.val = q.val; omega)
  unfold outArr
  rw [hq]
  exact Spec.nodeSplit_congr (fun j => blk1_0 V c t p j _ hr) (fun j => blk1_1 V c t p j _ hr)
    (fun j k => blk1_2 V c t j k) (fun j k => blk1_3 V c t j k) (fun k => blk1_4 V c t k)
    (fun k => blk1_5 V c t k q) (blk1_6 V c t q)

/-- What point t writes back is block t of the function. -/
theorem flushed_out (c : Dev nD) (t : Fin cfg1.N) :
    (dat1 V c).flushed 7 t = ((cfg1.win 7).blk t).view.read (Elt Ideal) (outArr V c) := by
  show (cfg1.win 7).cut (grid1.coords t) ((dat1 V c).after 7 t) = _
  rw [after1_7]
  unfold out1_7
  rw [View.canon_unit_zero hz2]
  simp only [View.ld_unit_zero (S := S5000x256) hz2, View.ld_unit_zero (S := S5000x128) hz2, View.ld_unit_zero (S := S256x256) hz2,
    View.ld_unit_zero (S := S128x256) hz2, View.ld_unit_zero (S := S256) hz1, View.ld_unit_zero (S := S256x128) hz2,
    View.ld_unit_zero (S := S128) hz1]
  funext y
  rw [View.read_apply]
  exact out_at V c t y

/-- An index of the output array is in point t's block iff each coordinate is in the block's range. -/
theorem mem_blk_out (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v42).slice (win1_7.rect t)).set ↔ _
  rw [View.set_slice_whole, Rect.mem_set_unit]
  exact Iff.rfl

/-- Row r of the output lies in the block of point r / 5000. -/
theorem cover_out (i : S50000x128.Idx) : ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_7 _, ?_⟩
  have hi := idx_facts1 ⟨(i 0).val / 5000, by rw [hN]; omega⟩
  rw [mem_blk_out]
  intro a
  match a with
  | ⟨0, _⟩ =>
    show win1_7.index ⟨(i 0).val / 5000, _⟩ (0 : Fin 2) * 5000 ≤ (i 0).val ∧ (i 0).val < win1_7.index ⟨(i 0).val / 5000, _⟩ (0 : Fin 2) * 5000 + 5000
    have : (⟨(i 0).val / 5000, by rw [hN]; omega⟩ : Fin cfg1.N).val = (i 0).val / 5000 := rfl
    omega
  | ⟨1, _⟩ =>
    show win1_7.index ⟨(i 0).val / 5000, _⟩ (1 : Fin 2) * 128 ≤ (i 1).val ∧ (i 1).val < win1_7.index ⟨(i 0).val / 5000, _⟩ (1 : Fin 2) * 128 + 128
    omega

/-- THE UPDATED STATES: when the region ends, the output array is the state plus the split-form perceptron of the input arrays. -/
theorem final_out (c : Dev nD) : (dat1 V c).arrAt 7 cfg1.N = outArr V c :=
  (dat1 V c).arrAt_eq_of_cover 7 (outArr V c) (fun t _ => flushed_out V c t) (cover_out)

end Cert.NodeRegion

end
-- ==== Proof.RefValue.lean ====
/-
  What the reference computes, entry by entry, in the joined form.

  A two-layer perceptron written with arrays — a plain matrix product, the bias repeated over the rows, the
  rectifier as a maximum with the zero array, a second product and bias — reads, at entry (p, q), the second layer
  of the hidden row of row p: the joined form. This is shown once for any number of rows, input width and output
  width, and then for the reference's three perceptrons (two on the 257-wide joined edge rows, one on the 384-wide
  joined node rows, the last with the residual state added).

  The whole result is then the joined form of the node update on a joined row whose aggregate part is a sum of two
  scatter-adds of joined-form messages, themselves on joined rows of gathered states. The gathers, the
  scatter-adds and the concatenations are kept as arrays, not read.
-/
import proofs.«116389_j22874995818875_2_alg».proof.Proof.Gen.ReferenceIdeal.Run
import proofs.«116389_j22874995818875_2_alg».proof.Proof.Spec
import proofs.«116389_j22874995818875_2_alg».proof.Proof.LibPlainDot
import Idealize.ShloMosaic.Lib.Pipeline.Value
import Idealize.ShloMosaic.Lib.ValueIdx
import Idealize.ShloMosaic.PureOps.Ideal.Laws

noncomputable section

open scoped BigOperators

namespace Cert.RefValue

open Cert.ReferenceIdeal Cert.ReferenceIdeal.Gen Idealize.ShloMosaic Idealize.ShloMosaic.TcCoe Idealize.SL.Sem
  Idealize.ShloMosaic.StableHlo Idealize.ShloMosaic.ValueIdx

/-! ### The pieces of a perceptron, read at an entry -/

/-- A length-C vector laid out as a 1×C row and repeated over R rows reads, at (p, q), the vector at q. -/
theorem bias_apply {α : Type} {R C : ℕ} (hC : C ≠ 1)
    (h0 : (⟨1, ![C]⟩ : Shape).BroadcastsInDim ⟨2, ![1, C]⟩ ![1])
    (h1 : (⟨2, ![1, C]⟩ : Shape).BroadcastsInDim ⟨2, ![R, C]⟩ ![0, 1])
    (b : (⟨1, ![C]⟩ : Shape).Idx → α) (p : Fin R) (q : Fin C) :
    broadcastInDim ⟨2, ![R, C]⟩ ![0, 1] h1 (broadcastInDim ⟨2, ![1, C]⟩ ![1] h0 b) (ix2 p q) = b (ix1 q) := by
  rw [broadcastInDim_apply ![0, 1] h1 _ (ix2 p q) (ix2 (0 : Fin 1) q) (fun a => match a with
      | ⟨0, _⟩ => by show 0 = if (1 : ℕ) = 1 then 0 else p.val; rw [if_pos rfl]
      | ⟨1, _⟩ => by show q.val = if C = 1 then 0 else q.val; rw [if_neg hC]),
    broadcastInDim_apply ![1] h0 b (ix2 (0 : Fin 1) q) (ix1 q) (fun a => match a with
      | ⟨0, _⟩ => by show q.val = if C = 1 then 0 else q.val; rw [if_neg hC])]

/-- The float word of zero repeated over an array reads the rectifier's threshold everywhere. -/
theorem zero_splat_apply {t : Shape} (h : (⟨0, ![]⟩ : Shape).BroadcastsInDim t ![]) (j : t.Idx) :
    broadcastInDim t ![] h (constant (F := Ideal) ⟨0, ![]⟩ .f32 0x00000000#32) j = Spec.zeroWord := by
  refine (broadcastInDim_apply _ h _ j (fun a => a.elim0) (fun a => a.elim0)).trans ?_
  unfold Spec.zeroWord
  rfl

/-- A two-layer perceptron with 256 hidden units on an already joined input, written with arrays — two plain matrix
    products, the biases repeated over the rows, the rectifier as a maximum with the zero array — read at entry
    (p, q): the second layer of the joined form's hidden row. -/
theorem mlp_apply {R K C : ℕ} (hC : C ≠ 1) (x : FVec Ideal ⟨2, ![R, K]⟩ .f32) (W1 : FVec Ideal ⟨2, ![K, 256]⟩ .f32)
    (b1 : FVec Ideal ⟨1, ![256]⟩ .f32) (W2 : FVec Ideal ⟨2, ![256, C]⟩ .f32) (b2 : FVec Ideal ⟨1, ![C]⟩ .f32)
    (hb0 : (⟨1, ![256]⟩ : Shape).BroadcastsInDim ⟨2, ![1, 256]⟩ ![1])
    (hb1 : (⟨2, ![1, 256]⟩ : Shape).BroadcastsInDim ⟨2, ![R, 256]⟩ ![0, 1])
    (hz : (⟨0, ![]⟩ : Shape).BroadcastsInDim ⟨2, ![R, 256]⟩ ![])
    (hc0 : (⟨1, ![C]⟩ : Shape).BroadcastsInDim ⟨2, ![1, C]⟩ ![1])
    (hc1 : (⟨2, ![1, C]⟩ : Shape).BroadcastsInDim ⟨2, ![R, C]⟩ ![0, 1]) (p : Fin R) (q : Fin C) :
    addf (Host.dotGeneral (DotDims.plain R 256 C) none
          (maximumf (addf (Host.dotGeneral (DotDims.plain R K 256) none x W1)
              (broadcastInDim ⟨2, ![R, 256]⟩ ![0, 1] hb1 (broadcastInDim ⟨2, ![1, 256]⟩ ![1] hb0 b1)))
            (broadcastInDim ⟨2, ![R, 256]⟩ ![] hz (constant (F := Ideal) ⟨0, ![]⟩ .f32 0x00000000#32))) W2)
        (broadcastInDim ⟨2, ![R, C]⟩ ![0, 1] hc1 (broadcastInDim ⟨2, ![1, C]⟩ ![1] hc0 b2)) (ix2 p q)
      = Spec.layer2 (Spec.hidJoined x W1 b1 p) W2 b2 q := by
  simp only [Host.dotGeneral]
  rw [addf_apply, bias_apply hC hc0 hc1 b2 p q, LibPlainDot.dotGeneral_apply]
  unfold Spec.layer2
  congr 1
  refine Finset.sum_congr rfl fun l _ => ?_
  congr 1
  rw [maximumf_apply, addf_apply, zero_splat_apply, bias_apply (by decide) hb0 hb1 b1 p l,
    LibPlainDot.dotGeneral_apply]
  rfl

/-! ### The reference's three perceptrons -/

/-- An edge perceptron of the reference on an already joined 257-wide input, as arrays: entry by entry the joined
    form. -/
theorem edge_stage (x : FVec Ideal S800000x257 .f32) (W1 : FVec Ideal S257x256 .f32) (b1 : FVec Ideal S256 .f32)
    (W2 : FVec Ideal S256x256 .f32) (b2 : FVec Ideal S256 .f32) :
    addf (Host.dotGeneral dot_S800000x256_S256x256_S800000x256_1_0_0_1_n_n none (maximumf (addf (Host.dotGeneral dot_S800000x257_S257x256_S800000x256_1_0_0_1_n_n none x W1) (broadcastInDim S800000x256 ![0, 1] bcast_S1x256_S800000x256_0_1 (broadcastInDim S1x256 ![1] bcast_S256_S1x256_1 b1))) (broadcastInDim S800000x256 ![] bcast_S_S800000x256 (constant (F := Ideal) S_ .f32 0x00000000#32))) W2) (broadcastInDim S800000x256 ![0, 1] bcast_S1x256_S800000x256_0_1 (broadcastInDim S1x256 ![1] bcast_S256_S1x256_1 b2))
      = fun i => Cert.Spec.edgeJoined x W1 b1 W2 b2 (i 0) (i 1) := by
  funext i
  obtain ⟨p, q, rfl⟩ : ∃ p q, i = ix2 p q := ⟨i 0, i 1, eq_ix2 i⟩
  exact mlp_apply (R := 800000) (K := 257) (C := 256) (by decide) x W1 b1 W2 b2 bcast_S256_S1x256_1
    bcast_S1x256_S800000x256_0_1 bcast_S_S800000x256 bcast_S256_S1x256_1 bcast_S1x256_S800000x256_0_1 p q

/-- The node perceptron of the reference on an already joined 384-wide input, with the residual state added, as
    arrays: entry by entry the joined form. -/
theorem node_stage (x : FVec Ideal S50000x384 .f32) (s : FVec Ideal S50000x128 .f32) (W1 : FVec Ideal S384x256 .f32)
    (b1 : FVec Ideal S256 .f32) (W2 : FVec Ideal S256x128 .f32) (b2 : FVec Ideal S128 .f32) :
    addf s (addf (Host.dotGeneral dot_S50000x256_S256x128_S50000x128_1_0_0_1_n_n none (maximumf (addf (Host.dotGeneral dot_S50000x384_S384x256_S50000x256_1_0_0_1_n_n none x W1) (broadcastInDim S50000x256 ![0, 1] bcast_S1x256_S50000x256_0_1 (broadcastInDim S1x256 ![1] bcast_S256_S1x256_1 b1))) (broadcastInDim S50000x256 ![] bcast_S_S50000x256 (constant (F := Ideal) S_ .f32 0x00000000#32))) W2) (broadcastInDim S50000x128 ![0, 1] bcast_S1x128_S50000x128_0_1 (broadcastInDim S1x128 ![1] bcast_S128_S1x128_1 b2)))
      = fun i => Cert.Spec.nodeJoined x s W1 b1 W2 b2 (i 0) (i 1) := by
  funext i
  obtain ⟨p, q, rfl⟩ : ∃ p q, i = ix2 p q := ⟨i 0, i 1, eq_ix2 i⟩
  rw [addf_apply]
  exact congrArg (fun z => s (ix2 p q) + z)
    (mlp_apply (R := 50000) (K := 384) (C := 128) (by decide) x W1 b1 W2 b2 bcast_S256_S1x256_1
      bcast_S1x256_S50000x256_0_1 bcast_S_S50000x256 bcast_S128_S1x128_1 bcast_S1x128_S50000x128_0_1 p q)

/-! ### The whole result -/

/-- The rows of the node states picked by an index vector: a gather of whole rows, a negative index first moved up by
    the number of nodes. Kept as an array: which row an edge reads depends on the index values. -/
def gatherRows (a0 : FVec Ideal S50000x128 .f32) (idx : (⟨S800000, .i32⟩ : BufTy).Contents (Elt Ideal)) :
    FVec Ideal S800000x128 .f32 :=
  Host.gather gather_S50000x128_S800000x1_S800000x128_1_0_n_n_0_1_1128 a0 (broadcastInDim S800000x1 ![0] bcast_S800000_S800000x1_0 (select (cmpi .slt idx (broadcastInDim S800000 ![] bcast_S_S800000 (constantI S_ 32 0#32))) (addi idx (broadcastInDim S800000 ![] bcast_S_S800000 (constantI S_ 32 50000#32))) idx))

/-- The per-node sum of the edge messages whose index is that node: a scatter-add of the message rows into the zero
    array. Kept as an array: which messages meet at a node depends on the index values. -/
def segSum (idx : (⟨S800000, .i32⟩ : BufTy).Contents (Elt Ideal)) (u : FVec Ideal S800000x256 .f32) :
    FVec Ideal S50000x256 .f32 :=
  Host.scatterAdd scatter_S50000x256_S800000x1_S800000x256_1_0_0_1 (broadcastInDim S50000x256 ![] bcast_S_S50000x256 (constant (F := Ideal) S_ .f32 0x00000000#32)) (broadcastInDim S800000x1 ![0] bcast_S800000_S800000x1_0 idx) u

/-- What the reference computes, from its sixteen arguments: each node's updated state is the joined form on the
    aggregate and the state laid side by side; the aggregate is the forward messages summed onto the receiving
    node plus the reverse messages summed onto the sending node; each message is the joined form on the two
    gathered state rows and the edge feature laid side by side (sender, receiver, feature forward; receiver,
    sender, feature in reverse). -/
def refOut
    (a0 : FVec Ideal S50000x128 .f32) (a1 : FVec Ideal S800000x1 .f32)
    (a2 : (⟨S800000, .i32⟩ : BufTy).Contents (Elt Ideal)) (a3 : (⟨S800000, .i32⟩ : BufTy).Contents (Elt Ideal))
    (a4 : FVec Ideal S257x256 .f32) (a5 : FVec Ideal S256 .f32) (a6 : FVec Ideal S256x256 .f32) (a7 : FVec Ideal S256 .f32)
    (a8 : FVec Ideal S257x256 .f32) (a9 : FVec Ideal S256 .f32) (a10 : FVec Ideal S256x256 .f32) (a11 : FVec Ideal S256 .f32)
    (a12 : FVec Ideal S384x256 .f32) (a13 : FVec Ideal S256 .f32) (a14 : FVec Ideal S256x128 .f32) (a15 : FVec Ideal S128 .f32) :
    FVec Ideal S50000x128 .f32 :=
  fun i => Cert.Spec.nodeJoined (concatenate S50000x384 1 [⟨S50000x256, addf (segSum a3 (fun j => Cert.Spec.edgeJoined (concatenate S800000x257 1 [⟨S800000x128, gatherRows a0 a2⟩, ⟨S800000x128, gatherRows a0 a3⟩, ⟨S800000x1, a1⟩] concatenates_S800000x128_S800000x128_S800000x1_S800000x257_d1) a4 a5 a6 a7 (j 0) (j 1))) (segSum a2 (fun j => Cert.Spec.edgeJoined (concatenate S800000x257 1 [⟨S800000x128, gatherRows a0 a3⟩, ⟨S800000x128, gatherRows a0 a2⟩, ⟨S800000x1, a1⟩] concatenates_S800000x128_S800000x128_S800000x1_S800000x257_d1) a8 a9 a10 a11 (j 0) (j 1)))⟩, ⟨S50000x128, a0⟩] concatenates_S50000x256_S50000x128_S50000x384_d1) a0 a12 a13 a14 a15 (i 0) (i 1)

/-- The reference's result, as one term of the argument arrays, is `refOut` of them: its three perceptrons are
    the joined form entry by entry; the gathers, the scatter-adds and the concatenations stay as they are. -/
theorem ref_result (m : (ℓ : Loc nD τ sig) → Buf (Elt Ideal) ℓ) (c : Dev nD) :
    Cert.ReferenceIdeal.Value.res_out0 (F := Ideal) m c
      = refOut
          (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14)) (m ((c.tc : Thread nD τ).loc main_arg15)) := by
  show Cert.ReferenceIdeal.Value.res_main_v51 (F := Ideal) m c = _
  unfold Cert.ReferenceIdeal.Value.res_main_v51
  rw [edge_stage, edge_stage, node_stage]
  rfl

end Cert.RefValue

end
-- ==== Proof.LibConcat2.lean ====
/-
  Two matrices joined along one axis, read at an index given by coordinates; and a sum over a range cut in two.

  Two pieces [R, C₁] and [R, C₂] laid side by side along axis 1 read, at (r, g), the first piece at (r, g) when
  column g is one of its own, and the second at (r, g − C₁) otherwise. Two pieces [R₁, C] and [R₂, C] stacked
  along axis 0 read, at (r, g), the first at (r, g) when row r is one of its own, and the second at (r − R₁, g)
  otherwise. The position inside the piece is given as a coordinate of its own with the equation that ties it to
  the joined coordinate, so that no subtraction appears in a statement.

  A sum over a + b positions is the sum over the first a plus the sum over the last b.
-/
import Idealize.ShloMosaic.Lib.Pipeline.Value
import Idealize.ShloMosaic.Lib.ValueIdx

open scoped BigOperators

namespace Cert.LibConcat2

open Idealize.ShloMosaic Idealize.ShloMosaic.ValueIdx

variable {α : Type}

/-- Side by side, a column of the first piece. -/
theorem cols_left {R C₁ C₂ C : ℕ} (a : (⟨2, ![R, C₁]⟩ : Shape).Idx → α) (b : (⟨2, ![R, C₂]⟩ : Shape).Idx → α)
    (h : Shape.Concatenates [(⟨2, ![R, C₁]⟩ : Shape), ⟨2, ![R, C₂]⟩] ⟨2, ![R, C]⟩ 1)
    (r : Fin R) (g : Fin C) (g' : Fin C₁) (hg : g'.val = g.val) :
    concatenate ⟨2, ![R, C]⟩ 1 [⟨⟨2, ![R, C₁]⟩, a⟩, ⟨⟨2, ![R, C₂]⟩, b⟩] h (ix2 r g) = a (ix2 r g') :=
  concatenate_pair_apply_left 1 a b h (ix2 r g) rfl (ix2 r g') fun ax => by
    match ax with
    | ⟨0, _⟩ => rfl
    | ⟨1, _⟩ => exact hg

/-- Side by side, a column of the second piece. -/
theorem cols_right {R C₁ C₂ C : ℕ} (a : (⟨2, ![R, C₁]⟩ : Shape).Idx → α) (b : (⟨2, ![R, C₂]⟩ : Shape).Idx → α)
    (h : Shape.Concatenates [(⟨2, ![R, C₁]⟩ : Shape), ⟨2, ![R, C₂]⟩] ⟨2, ![R, C]⟩ 1)
    (r : Fin R) (g : Fin C) (g' : Fin C₂) (hg : g'.val + C₁ = g.val) :
    concatenate ⟨2, ![R, C]⟩ 1 [⟨⟨2, ![R, C₁]⟩, a⟩, ⟨⟨2, ![R, C₂]⟩, b⟩] h (ix2 r g) = b (ix2 r g') :=
  concatenate_pair_apply_right 1 a b h (ix2 r g) rfl rfl (ix2 r g')
    (fun ax hne => by
      match ax with
      | ⟨0, _⟩ => rfl
      | ⟨1, _⟩ => exact absurd rfl hne)
    hg

/-- Stacked, a row of the first piece. -/
theorem rows_left {R₁ R₂ R C : ℕ} (a : (⟨2, ![R₁, C]⟩ : Shape).Idx → α) (b : (⟨2, ![R₂, C]⟩ : Shape).Idx → α)
    (h : Shape.Concatenates [(⟨2, ![R₁, C]⟩ : Shape), ⟨2, ![R₂, C]⟩] ⟨2, ![R, C]⟩ 0)
    (r : Fin R) (r' : Fin R₁) (hr : r'.val = r.val) (g : Fin C) :
    concatenate ⟨2, ![R, C]⟩ 0 [⟨⟨2, ![R₁, C]⟩, a⟩, ⟨⟨2, ![R₂, C]⟩, b⟩] h (ix2 r g) = a (ix2 r' g) :=
  concatenate_pair_apply_left 0 a b h (ix2 r g) rfl (ix2 r' g) fun ax => by
    match ax with
    | ⟨0, _⟩ => exact hr
    | ⟨1, _⟩ => rfl

/-- Stacked, a row of the second piece. -/
theorem rows_right {R₁ R₂ R C : ℕ} (a : (⟨2, ![R₁, C]⟩ : Shape).Idx → α) (b : (⟨2, ![R₂, C]⟩ : Shape).Idx → α)
    (h : Shape.Concatenates [(⟨2, ![R₁, C]⟩ : Shape), ⟨2, ![R₂, C]⟩] ⟨2, ![R, C]⟩ 0)
    (r : Fin R) (r' : Fin R₂) (hr : r'.val + R₁ = r.val) (g : Fin C) :
    concatenate ⟨2, ![R, C]⟩ 0 [⟨⟨2, ![R₁, C]⟩, a⟩, ⟨⟨2, ![R₂, C]⟩, b⟩] h (ix2 r g) = b (ix2 r' g) :=
  concatenate_pair_apply_right 0 a b h (ix2 r g) rfl rfl (ix2 r' g)
    (fun ax hne => by
      match ax with
      | ⟨0, _⟩ => exact absurd rfl hne
      | ⟨1, _⟩ => rfl)
    hr

/-- A sum over a + b positions, cut after the first a. -/
theorem sum_two_blocks {M : Type*} [AddCommMonoid M] {a b n : ℕ} (hn : a + b = n) (f : Fin n → M) :
    ∑ l : Fin n, f l
      = ∑ l : Fin a, f ⟨l.val, by have := l.isLt; omega⟩ + ∑ l : Fin b, f ⟨a + l.val, by have := l.isLt; omega⟩ := by
  subst hn
  exact Fin.sum_univ_add f

end Cert.LibConcat2
-- ==== Proof.LibCols3.lean ====
/-
  Three matrices of different widths laid side by side, and a group of rows of a matrix, read at an index.

  A concatenation along the columns of an R×C₁, an R×C₂ and an R×C₃ matrix reads, at (r, g), the first piece at
  (r, g) for a column of its own, the second at (r, g − C₁), the third at (r, g − C₁ − C₂); the column inside the
  piece is given as a coordinate of its own with the equation that ties it to the joined column, so that no
  subtraction appears in a statement. (Three pieces of ONE width are the special case.) This is the layout of a row
  made of two feature vectors and a scalar feature.

  A unit-stride slice of rows off … off + K' − 1 of a K×N matrix, all columns kept, reads, at (d, k), the matrix at
  (off + d, k): how a weight matrix is cut into the groups of rows that meet the parts of a joined input row.
-/
import Idealize.ShloMosaic.Lib.Pipeline.Value
import Idealize.ShloMosaic.Lib.ValueIdx

namespace Cert.LibCols3

open Idealize.ShloMosaic Idealize.ShloMosaic.ValueIdx

variable {α : Type}

/-! ### Three pieces of any widths laid side by side, read at a column -/

section Cols3

variable {R C₁ C₂ C₃ C : ℕ} (a : (⟨2, ![R, C₁]⟩ : Shape).Idx → α) (b : (⟨2, ![R, C₂]⟩ : Shape).Idx → α)
  (d : (⟨2, ![R, C₃]⟩ : Shape).Idx → α)
  (h : Shape.Concatenates [(⟨2, ![R, C₁]⟩ : Shape), ⟨2, ![R, C₂]⟩, ⟨2, ![R, C₃]⟩] ⟨2, ![R, C]⟩ 1)

/-- Columns 0 … C₁-1 are the first piece. -/
theorem cols3_first (r : Fin R) (g : Fin C) (g' : Fin C₁) (hg : g'.val = g.val) :
    concatenate ⟨2, ![R, C]⟩ 1 [⟨⟨2, ![R, C₁]⟩, a⟩, ⟨⟨2, ![R, C₂]⟩, b⟩, ⟨⟨2, ![R, C₃]⟩, d⟩] h (ix2 r g) = a (ix2 r g') :=
  concatenate_apply_piece 1 [⟨⟨2, ![R, C₁]⟩, a⟩, ⟨⟨2, ![R, C₂]⟩, b⟩, ⟨⟨2, ![R, C₃]⟩, d⟩] h (ix2 r g) 0 (by simp) _ a rfl rfl 0 rfl
    (ix2 r g') (fun x hx => by match x with | ⟨0, _⟩ => rfl | ⟨1, _⟩ => exact absurd rfl hx)
    (by show 0 + g'.val = g.val; omega)

/-- Columns C₁ … C₁+C₂-1 are the second piece. -/
theorem cols3_second (r : Fin R) (g : Fin C) (g' : Fin C₂) (hg : C₁ + g'.val = g.val) :
    concatenate ⟨2, ![R, C]⟩ 1 [⟨⟨2, ![R, C₁]⟩, a⟩, ⟨⟨2, ![R, C₂]⟩, b⟩, ⟨⟨2, ![R, C₃]⟩, d⟩] h (ix2 r g) = b (ix2 r g') :=
  concatenate_apply_piece 1 [⟨⟨2, ![R, C₁]⟩, a⟩, ⟨⟨2, ![R, C₂]⟩, b⟩, ⟨⟨2, ![R, C₃]⟩, d⟩] h (ix2 r g) 1 (by simp) _ b rfl rfl C₁ (by simp)
    (ix2 r g') (fun x hx => by match x with | ⟨0, _⟩ => rfl | ⟨1, _⟩ => exact absurd rfl hx)
    (by show C₁ + g'.val = g.val; omega)

/-- Columns C₁+C₂ … C₁+C₂+C₃-1 are the third piece. -/
theorem cols3_third (r : Fin R) (g : Fin C) (g' : Fin C₃) (hg : C₁ + C₂ + g'.val = g.val) :
    concatenate ⟨2, ![R, C]⟩ 1 [⟨⟨2, ![R, C₁]⟩, a⟩, ⟨⟨2, ![R, C₂]⟩, b⟩, ⟨⟨2, ![R, C₃]⟩, d⟩] h (ix2 r g) = d (ix2 r g') :=
  concatenate_apply_piece 1 [⟨⟨2, ![R, C₁]⟩, a⟩, ⟨⟨2, ![R, C₂]⟩, b⟩, ⟨⟨2, ![R, C₃]⟩, d⟩] h (ix2 r g) 2 (by simp) _ d rfl rfl (C₁ + C₂) (by simp)
    (ix2 r g') (fun x hx => by match x with | ⟨0, _⟩ => rfl | ⟨1, _⟩ => exact absurd rfl hx)
    (by show C₁ + C₂ + g'.val = g.val; omega)

end Cols3

/-! ### A group of rows of a matrix, read at an index -/

/-- Rows off … off+K'-1 of a K×N matrix, read at (d, k): the matrix at (off + d, k). -/
theorem rows_slice {K N K' off : ℕ} (W : (⟨2, ![K, N]⟩ : Shape).Idx → α)
    (h : (⟨2, ![K, N]⟩ : Shape).Slices ![off, 0] ⟨2, ![K', N]⟩) (d : Fin K') (k : Fin N) (j : Fin K)
    (hj : j.val = off + d.val) :
    extractStridedSlice ⟨2, ![K', N]⟩ ![off, 0] W h (ix2 d k) = W (ix2 j k) :=
  extractStridedSlice_apply ![off, 0] W h (ix2 d k) (ix2 j k) fun x => by
    match x with
    | ⟨0, _⟩ => exact hj
    | ⟨1, _⟩ => show k.val = 0 + k.val; omega

end Cert.LibCols3
-- ==== Proof.Law.lean ====
/-
  The law joining the two forms of a perceptron's first layer.

  A joined row is its parts laid side by side, and the first weight matrix is its groups of rows stacked in the same
  order. A hidden pre-activation of the joined form is one sum over all the columns of the joined row; cut after each
  part, it is the split form's partial products, one per part, added in the split form's own grouping. Only cutting a
  finite sum in an additive commutative monoid is used: no distributivity, no finiteness of the values.

  With three pieces laid side by side read at a column of each piece, and a group of rows of a matrix read at one of
  its entries, the hidden pre-activations of an edge (257 = 128 + 128 + 1 columns) and of a node (384 = 256 + 128
  columns) agree, and the second layer, the same function of the hidden row in both forms, gives the two laws.
-/
import proofs.«116389_j22874995818875_2_alg».proof.Proof.Spec
import proofs.«116389_j22874995818875_2_alg».proof.Proof.LibConcat2
import proofs.«116389_j22874995818875_2_alg».proof.Proof.LibCols3
import Idealize.ShloMosaic.Lib.Pipeline.Value
import Idealize.ShloMosaic.Lib.ValueIdx

noncomputable section

open scoped BigOperators

namespace Cert.Law

open Idealize.ShloMosaic Idealize.ShloMosaic.ValueIdx Cert.LibCols3

/-! ### The hidden pre-activations agree -/

/-- An edge's hidden pre-activation: the sum over the 257 joined columns, cut after 128 and after 256, is the
    split form's three partial products in the split form's own grouping. -/
theorem edge_hid {E : ℕ} (a b : (⟨2, ![E, 128]⟩ : Shape).Idx → EReal) (ef : (⟨2, ![E, 1]⟩ : Shape).Idx → EReal)
    (W1 : (⟨2, ![257, 256]⟩ : Shape).Idx → EReal) (b1 : (⟨1, ![256]⟩ : Shape).Idx → EReal)
    (hc : Shape.Concatenates [(⟨2, ![E, 128]⟩ : Shape), ⟨2, ![E, 128]⟩, ⟨2, ![E, 1]⟩] ⟨2, ![E, 257]⟩ 1)
    (h0 : (⟨2, ![257, 256]⟩ : Shape).Slices ![0, 0] ⟨2, ![128, 256]⟩)
    (h1 : (⟨2, ![257, 256]⟩ : Shape).Slices ![128, 0] ⟨2, ![128, 256]⟩)
    (h2 : (⟨2, ![257, 256]⟩ : Shape).Slices ![256, 0] ⟨2, ![1, 256]⟩) (e : Fin E) (k : Fin 256) :
    Spec.hidJoined (concatenate ⟨2, ![E, 257]⟩ 1 [⟨⟨2, ![E, 128]⟩, a⟩, ⟨⟨2, ![E, 128]⟩, b⟩, ⟨⟨2, ![E, 1]⟩, ef⟩] hc) W1 b1 e k
      = Spec.edgeHidSplit a b ef (extractStridedSlice ⟨2, ![128, 256]⟩ ![0, 0] W1 h0)
          (extractStridedSlice ⟨2, ![128, 256]⟩ ![128, 0] W1 h1) (extractStridedSlice ⟨2, ![1, 256]⟩ ![256, 0] W1 h2) b1 e k := by
  unfold Spec.hidJoined Spec.edgeHidSplit
  congr 1
  rw [LibConcat2.sum_two_blocks (a := 256) (b := 1) rfl, LibConcat2.sum_two_blocks (a := 128) (b := 128) rfl,
    Fin.sum_univ_one]
  congr 1
  · congr 1
    · refine Finset.sum_congr rfl fun l _ => ?_
      rw [cols3_first a b ef hc e _ l rfl, rows_slice W1 h0 l k ⟨l.val, by have := l.isLt; omega⟩ (by simp)]
    · refine Finset.sum_congr rfl fun l _ => ?_
      rw [cols3_second a b ef hc e _ l rfl, rows_slice W1 h1 l k ⟨128 + l.val, by have := l.isLt; omega⟩ rfl]
  · rw [cols3_third a b ef hc e _ (0 : Fin 1) rfl, rows_slice W1 h2 (0 : Fin 1) k ⟨256 + (0 : Fin 1).val, by simp⟩ rfl]

/-- A node's hidden pre-activation: the sum over the 384 joined columns, cut after 256. -/
theorem node_hid {N : ℕ} (g : (⟨2, ![N, 256]⟩ : Shape).Idx → EReal) (s : (⟨2, ![N, 128]⟩ : Shape).Idx → EReal)
    (W1 : (⟨2, ![384, 256]⟩ : Shape).Idx → EReal) (b1 : (⟨1, ![256]⟩ : Shape).Idx → EReal)
    (hc : Shape.Concatenates [(⟨2, ![N, 256]⟩ : Shape), ⟨2, ![N, 128]⟩] ⟨2, ![N, 384]⟩ 1)
    (h0 : (⟨2, ![384, 256]⟩ : Shape).Slices ![0, 0] ⟨2, ![256, 256]⟩)
    (h1 : (⟨2, ![384, 256]⟩ : Shape).Slices ![256, 0] ⟨2, ![128, 256]⟩) (n : Fin N) (k : Fin 256) :
    Spec.hidJoined (concatenate ⟨2, ![N, 384]⟩ 1 [⟨⟨2, ![N, 256]⟩, g⟩, ⟨⟨2, ![N, 128]⟩, s⟩] hc) W1 b1 n k
      = Spec.nodeHidSplit g s (extractStridedSlice ⟨2, ![256, 256]⟩ ![0, 0] W1 h0)
          (extractStridedSlice ⟨2, ![128, 256]⟩ ![256, 0] W1 h1) b1 n k := by
  unfold Spec.hidJoined Spec.nodeHidSplit
  congr 1
  rw [LibConcat2.sum_two_blocks (a := 256) (b := 128) rfl]
  congr 1
  · refine Finset.sum_congr rfl fun l _ => ?_
    rw [LibConcat2.cols_left g s hc n _ l rfl, rows_slice W1 h0 l k ⟨l.val, by have := l.isLt; omega⟩ (by simp)]
  · refine Finset.sum_congr rfl fun l _ => ?_
    rw [LibConcat2.cols_right g s hc n _ l (Nat.add_comm _ _), rows_slice W1 h1 l k ⟨256 + l.val, by have := l.isLt; omega⟩ rfl]

/-! ### The two laws -/

/-- An edge's message: the joined form on the three parts laid side by side is the split form on the parts and
    on the matching groups of rows of the first weight matrix. -/
theorem edge_law {E : ℕ} (a b : (⟨2, ![E, 128]⟩ : Shape).Idx → EReal) (ef : (⟨2, ![E, 1]⟩ : Shape).Idx → EReal)
    (W1 : (⟨2, ![257, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (hc : Shape.Concatenates [(⟨2, ![E, 128]⟩ : Shape), ⟨2, ![E, 128]⟩, ⟨2, ![E, 1]⟩] ⟨2, ![E, 257]⟩ 1)
    (h0 : (⟨2, ![257, 256]⟩ : Shape).Slices ![0, 0] ⟨2, ![128, 256]⟩)
    (h1 : (⟨2, ![257, 256]⟩ : Shape).Slices ![128, 0] ⟨2, ![128, 256]⟩)
    (h2 : (⟨2, ![257, 256]⟩ : Shape).Slices ![256, 0] ⟨2, ![1, 256]⟩) (e : Fin E) (h : Fin 256) :
    Spec.edgeJoined (concatenate ⟨2, ![E, 257]⟩ 1 [⟨⟨2, ![E, 128]⟩, a⟩, ⟨⟨2, ![E, 128]⟩, b⟩, ⟨⟨2, ![E, 1]⟩, ef⟩] hc) W1 b1 W2 b2 e h
      = Spec.edgeSplit a b ef (extractStridedSlice ⟨2, ![128, 256]⟩ ![0, 0] W1 h0)
          (extractStridedSlice ⟨2, ![128, 256]⟩ ![128, 0] W1 h1) (extractStridedSlice ⟨2, ![1, 256]⟩ ![256, 0] W1 h2) b1 W2 b2 e h := by
  unfold Spec.edgeJoined Spec.edgeSplit
  exact congrArg (fun z => Spec.layer2 z W2 b2 h) (funext fun k => edge_hid a b ef W1 b1 hc h0 h1 h2 e k)

/-- A node's updated state: the joined form on the aggregate and the state laid side by side is the split form. -/
theorem node_law {N : ℕ} (g : (⟨2, ![N, 256]⟩ : Shape).Idx → EReal) (s : (⟨2, ![N, 128]⟩ : Shape).Idx → EReal)
    (W1 : (⟨2, ![384, 256]⟩ : Shape).Idx → EReal) (b1 : (⟨1, ![256]⟩ : Shape).Idx → EReal)
    (W2 : (⟨2, ![256, 128]⟩ : Shape).Idx → EReal) (b2 : (⟨1, ![128]⟩ : Shape).Idx → EReal)
    (hc : Shape.Concatenates [(⟨2, ![N, 256]⟩ : Shape), ⟨2, ![N, 128]⟩] ⟨2, ![N, 384]⟩ 1)
    (h0 : (⟨2, ![384, 256]⟩ : Shape).Slices ![0, 0] ⟨2, ![256, 256]⟩)
    (h1 : (⟨2, ![384, 256]⟩ : Shape).Slices ![256, 0] ⟨2, ![128, 256]⟩) (n : Fin N) (d : Fin 128) :
    Spec.nodeJoined (concatenate ⟨2, ![N, 384]⟩ 1 [⟨⟨2, ![N, 256]⟩, g⟩, ⟨⟨2, ![N, 128]⟩, s⟩] hc) s W1 b1 W2 b2 n d
      = Spec.nodeSplit g s (extractStridedSlice ⟨2, ![256, 256]⟩ ![0, 0] W1 h0)
          (extractStridedSlice ⟨2, ![128, 256]⟩ ![256, 0] W1 h1) b1 W2 b2 n d := by
  unfold Spec.nodeJoined Spec.nodeSplit
  exact congrArg (fun z => s (ix2 n d) + Spec.layer2 z W2 b2 d) (funext fun k => node_hid g s W1 b1 hc h0 h1 n k)

end Cert.Law

end
-- ==== Proof.KernelValue.lean ====
/-
  The kernel program's result as one function of its sixteen arguments, and that this function is the reference's.

  Composed from: the node region's output array as the split-form update of its entry arrays; the aggregate at its
  entry, the sum of two per-node sums of the edge region's two output arrays; those arrays as the split-form messages
  of the edge region's entry arrays; the entry arrays as gathers of the node states and groups of rows of the weights.
  Changes of float format are the identity on the extended reals.

  The reference computes the same per-node sums of messages that are the joined form on gathered rows laid side by side,
  and the joined-form update on the aggregate and the state laid side by side. The law between the two forms (a finite
  sum cut after each part of the joined row) turns each joined form into the split form over the weight matrix's groups
  of rows — the very operands the kernel program's host side prepares — and the gathers and per-node sums are the same
  operations applied to equal arrays.
-/
import proofs.«116389_j22874995818875_2_alg».proof.Proof.HostSide
import proofs.«116389_j22874995818875_2_alg».proof.Proof.EdgeRegion
import proofs.«116389_j22874995818875_2_alg».proof.Proof.NodeRegion
import proofs.«116389_j22874995818875_2_alg».proof.Proof.RefValue
import proofs.«116389_j22874995818875_2_alg».proof.Proof.Law

set_option maxRecDepth 16384

noncomputable section

namespace Cert.KernelValue

open Idealize.ShloMosaic Idealize.ShloMosaic.TcCoe Idealize.SL.Sem Idealize.ShloMosaic.StableHlo Idealize.ShloMosaic.ValueIdx
open Cert.KernelIdeal Cert.KernelIdeal.Gen

/-! ## The pieces, over arbitrary argument arrays -/

/-- The rows of the reformatted node states picked by an index vector, a negative index first moved up by 50000. -/
def rowsOf (a0 : FVec Ideal S50000x128 .f32) (idx : (⟨S800000, .i32⟩ : BufTy).Contents (Elt Ideal)) : FVec Ideal S800000x128 .bf16 :=
  Host.gather gather_S50000x128_S800000x1_S800000x128_1_0_n_n_0_1_1128 (truncf .bf16 a0 bitsLt_bf16_f32) (broadcastInDim S800000x1 ![0] bcast_S800000_S800000x1_0 (select (cmpi .slt idx (broadcastInDim S800000 ![] bcast_S_S800000 (constantI S_ 32 0#32))) (addi idx (broadcastInDim S800000 ![] bcast_S_S800000 (constantI S_ 32 50000#32))) idx))

/-- The per-node sum of message rows: a scatter-add of the rows, widened back, into the zero array. -/
def sumOnto (idx : (⟨S800000, .i32⟩ : BufTy).Contents (Elt Ideal)) (u : FVec Ideal S800000x256 .bf16) : FVec Ideal S50000x256 .f32 :=
  Host.scatterAdd scatter_S50000x256_S800000x1_S800000x256_1_0_0_1 (broadcastInDim S50000x256 ![] bcast_S_S50000x256 (constant (F := Ideal) S_ .f32 0x00000000#32)) (broadcastInDim S800000x1 ![0] bcast_S800000_S800000x1_0 idx) (extf .f32 u bitsLt_bf16_f32)

/-- The messages of all edges: the split form over the three groups of rows of the first weight matrix. -/
def edgeMsgs (gA gB : FVec Ideal S800000x128 .bf16) (a1 : FVec Ideal S800000x1 .f32) (W1 : FVec Ideal S257x256 .f32)
    (b1 : FVec Ideal S256 .f32) (W2 : FVec Ideal S256x256 .f32) (b2 : FVec Ideal S256 .f32) : FVec Ideal S800000x256 .bf16 :=
  fun j => Spec.edgeSplit gA gB a1 (truncf .bf16 (extractStridedSlice S128x256 ![0, 0] W1 slices_S257x256_S128x256_0_0) bitsLt_bf16_f32) (truncf .bf16 (extractStridedSlice S128x256 ![128, 0] W1 slices_S257x256_S128x256_128_0) bitsLt_bf16_f32)
    (extractStridedSlice S1x256 ![256, 0] W1 slices_S257x256_S1x256_256_0) b1 (truncf .bf16 W2 bitsLt_bf16_f32) b2 (j 0) (j 1)

/-- The kernel program's result of its sixteen arguments. -/
def kernOut (a0 : FVec Ideal S50000x128 .f32) (a1 : FVec Ideal S800000x1 .f32) (a2 : (⟨S800000, .i32⟩ : BufTy).Contents (Elt Ideal)) (a3 : (⟨S800000, .i32⟩ : BufTy).Contents (Elt Ideal)) (a4 : FVec Ideal S257x256 .f32) (a5 : FVec Ideal S256 .f32) (a6 : FVec Ideal S256x256 .f32) (a7 : FVec Ideal S256 .f32) (a8 : FVec Ideal S257x256 .f32) (a9 : FVec Ideal S256 .f32) (a10 : FVec Ideal S256x256 .f32) (a11 : FVec Ideal S256 .f32) (a12 : FVec Ideal S384x256 .f32) (a13 : FVec Ideal S256 .f32) (a14 : FVec Ideal S256x128 .f32) (a15 : FVec Ideal S128 .f32) : FVec Ideal S50000x128 .f32 :=
  fun i => Spec.nodeSplit
    (addf (sumOnto a3 (edgeMsgs (rowsOf a0 a2) (rowsOf a0 a3) a1 a4 a5 a6 a7))
      (sumOnto a2 (edgeMsgs (rowsOf a0 a3) (rowsOf a0 a2) a1 a8 a9 a10 a11)))
    a0 (truncf .bf16 (extractStridedSlice S256x256 ![0, 0] a12 slices_S384x256_S256x256_0_0) bitsLt_bf16_f32) (truncf .bf16 (extractStridedSlice S128x256 ![256, 0] a12 slices_S384x256_S128x256_256_0) bitsLt_bf16_f32)
    a13 (truncf .bf16 a14 bitsLt_bf16_f32) a15 (i 0) (i 1)

/-! ## The run's result is that function of the launch contents -/

section Run

variable (m : (ℓ : Loc nD τ sig) → Buf (Elt Ideal) ℓ) (ρ : Dev nD → PrngReg)

/-- When the edge region ends its first output array holds the forward messages. -/
theorem fwd_value (c : Dev nD) :
    W2 m ρ c (Proc.devRef .tc main_v27_0)
      = edgeMsgs (rowsOf (m ((c : Thread nD τ).loc main_arg0)) (m ((c : Thread nD τ).loc main_arg2))) (rowsOf (m ((c : Thread nD τ).loc main_arg0)) (m ((c : Thread nD τ).loc main_arg3))) (m ((c : Thread nD τ).loc main_arg1)) (m ((c : Thread nD τ).loc main_arg4)) (m ((c : Thread nD τ).loc main_arg5)) (m ((c : Thread nD τ).loc main_arg6)) (m ((c : Thread nD τ).loc main_arg7)) := by
  refine (W2_arr m ρ c 15).trans ?_
  rw [EdgeRegion.final_fwd]
  unfold EdgeRegion.fwdArr
  rw [HostSide.entry_from, HostSide.entry_to, HostSide.entry_feat, HostSide.entry_w1a, HostSide.entry_w1b, HostSide.entry_w1c,
    HostSide.entry_b1, HostSide.entry_w2, HostSide.entry_b2]
  rfl

/-- When the edge region ends its second output array holds the reverse messages. -/
theorem rev_value (c : Dev nD) :
    W2 m ρ c (Proc.devRef .tc main_v27_1)
      = edgeMsgs (rowsOf (m ((c : Thread nD τ).loc main_arg0)) (m ((c : Thread nD τ).loc main_arg3))) (rowsOf (m ((c : Thread nD τ).loc main_arg0)) (m ((c : Thread nD τ).loc main_arg2))) (m ((c : Thread nD τ).loc main_arg1)) (m ((c : Thread nD τ).loc main_arg8)) (m ((c : Thread nD τ).loc main_arg9)) (m ((c : Thread nD τ).loc main_arg10)) (m ((c : Thread nD τ).loc main_arg11)) := by
  refine (W2_arr m ρ c 16).trans ?_
  rw [EdgeRegion.final_rev]
  unfold EdgeRegion.revArr
  rw [HostSide.entry_to, HostSide.entry_from, HostSide.entry_feat, HostSide.entry_rw1a, HostSide.entry_rw1b, HostSide.entry_rw1c,
    HostSide.entry_rb1, HostSide.entry_rw2, HostSide.entry_rb2]
  rfl

/-- The contents of the result buffer at the last boundary: the function of the launch contents. -/
theorem kernel_value (c : Dev nD) :
    W4 m ρ c (Proc.devRef .tc main_v42) = kernOut
      (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8))
      (m ((c : Thread nD τ).loc main_arg9))
      (m ((c : Thread nD τ).loc main_arg10))
      (m ((c : Thread nD τ).loc main_arg11))
      (m ((c : Thread nD τ).loc main_arg12))
      (m ((c : Thread nD τ).loc main_arg13))
      (m ((c : Thread nD τ).loc main_arg14))
      (m ((c : Thread nD τ).loc main_arg15)) := by
  refine (W4_arr m ρ c 7).trans ?_
  rw [NodeRegion.final_out]
  unfold NodeRegion.outArr
  rw [HostSide.entry_agg, HostSide.entry_states, HostSide.entry_wn1a, HostSide.entry_wn1b, HostSide.entry_bn1, HostSide.entry_wn2,
    HostSide.entry_bn2, fwd_value, rev_value, HostSide.mid_arg2, HostSide.mid_arg3, HostSide.mid_arg12, HostSide.mid_arg14]
  rfl

end Run

/-! ## The kernel program's function is the reference's -/

/-- Split-form messages over the groups of rows of a weight matrix, widened, are the joined-form messages on the two gathered
    arrays and the feature column laid side by side. -/
theorem msgs_joined (gA gB : FVec Ideal S800000x128 .bf16) (a1 : FVec Ideal S800000x1 .f32) (W1 : FVec Ideal S257x256 .f32)
    (b1 : FVec Ideal S256 .f32) (W2 : FVec Ideal S256x256 .f32) (b2 : FVec Ideal S256 .f32) :
    (extf .f32 (edgeMsgs gA gB a1 W1 b1 W2 b2) bitsLt_bf16_f32 : FVec Ideal S800000x256 .f32)
      = fun j => Spec.edgeJoined (concatenate Cert.ReferenceIdeal.S800000x257 1 [⟨S800000x128, gA⟩, ⟨S800000x128, gB⟩, ⟨S800000x1, a1⟩]
          Cert.ReferenceIdeal.Gen.concatenates_S800000x128_S800000x128_S800000x1_S800000x257_d1) W1 b1 W2 b2 (j 0) (j 1) :=
  funext fun j => (Law.edge_law gA gB a1 W1 b1 W2 b2 Cert.ReferenceIdeal.Gen.concatenates_S800000x128_S800000x128_S800000x1_S800000x257_d1
    slices_S257x256_S128x256_0_0 slices_S257x256_S128x256_128_0 slices_S257x256_S1x256_256_0 (j 0) (j 1)).symm

/-- The kernel program's gather of the reformatted states is the reference's gather of the states: a change of float
    format is the identity, and the two programs' dimension numbers are the same data. -/
theorem rows_eq (a0 : FVec Ideal S50000x128 .f32) (idx : (⟨S800000, .i32⟩ : BufTy).Contents (Elt Ideal)) :
    (rowsOf a0 idx : FVec Ideal S800000x128 .bf16) = Cert.RefValue.gatherRows a0 idx := rfl

/-- The kernel program's per-node sum of widened message rows is the reference's per-node sum of those rows. -/
theorem sum_eq (idx : (⟨S800000, .i32⟩ : BufTy).Contents (Elt Ideal)) (u : FVec Ideal S800000x256 .bf16) :
    sumOnto idx u = Cert.RefValue.segSum idx (extf .f32 u bitsLt_bf16_f32) := rfl

/-- The two aggregates are equal: per-node sums by the same index vectors of equal message arrays. -/
theorem agg_eq (a0 : FVec Ideal S50000x128 .f32) (a1 : FVec Ideal S800000x1 .f32) (a2 : (⟨S800000, .i32⟩ : BufTy).Contents (Elt Ideal)) (a3 : (⟨S800000, .i32⟩ : BufTy).Contents (Elt Ideal)) (a4 : FVec Ideal S257x256 .f32) (a5 : FVec Ideal S256 .f32) (a6 : FVec Ideal S256x256 .f32) (a7 : FVec Ideal S256 .f32) (a8 : FVec Ideal S257x256 .f32) (a9 : FVec Ideal S256 .f32) (a10 : FVec Ideal S256x256 .f32) (a11 : FVec Ideal S256 .f32) :
    addf (sumOnto a3 (edgeMsgs (rowsOf a0 a2) (rowsOf a0 a3) a1 a4 a5 a6 a7))
        (sumOnto a2 (edgeMsgs (rowsOf a0 a3) (rowsOf a0 a2) a1 a8 a9 a10 a11))
      = addf (Cert.RefValue.segSum a3 (fun j => Spec.edgeJoined (concatenate Cert.ReferenceIdeal.S800000x257 1 [⟨Cert.ReferenceIdeal.S800000x128, Cert.RefValue.gatherRows a0 a2⟩, ⟨Cert.ReferenceIdeal.S800000x128, Cert.RefValue.gatherRows a0 a3⟩, ⟨Cert.ReferenceIdeal.S800000x1, a1⟩] Cert.ReferenceIdeal.Gen.concatenates_S800000x128_S800000x128_S800000x1_S800000x257_d1) a4 a5 a6 a7 (j 0) (j 1)))
          (Cert.RefValue.segSum a2 (fun j => Spec.edgeJoined (concatenate Cert.ReferenceIdeal.S800000x257 1 [⟨Cert.ReferenceIdeal.S800000x128, Cert.RefValue.gatherRows a0 a3⟩, ⟨Cert.ReferenceIdeal.S800000x128, Cert.RefValue.gatherRows a0 a2⟩, ⟨Cert.ReferenceIdeal.S800000x1, a1⟩] Cert.ReferenceIdeal.Gen.concatenates_S800000x128_S800000x128_S800000x1_S800000x257_d1) a8 a9 a10 a11 (j 0) (j 1))) := by
  rw [sum_eq, sum_eq, msgs_joined, msgs_joined, rows_eq, rows_eq]

/-- A node update over a weight group and over its reformatted copy is one value. -/
theorem node_formats {N : ℕ} (g : (⟨2, ![N, 256]⟩ : Shape).Idx → EReal) (s : (⟨2, ![N, 128]⟩ : Shape).Idx → EReal)
    (Wa : FVec Ideal ⟨2, ![256, 256]⟩ .f32) (Wb : FVec Ideal ⟨2, ![128, 256]⟩ .f32) (b1 : (⟨1, ![256]⟩ : Shape).Idx → EReal)
    (W2 : FVec Ideal ⟨2, ![256, 128]⟩ .f32) (b2 : (⟨1, ![128]⟩ : Shape).Idx → EReal) (n : Fin N) (d : Fin 128) :
    Spec.nodeSplit g s (truncf .bf16 Wa bitsLt_bf16_f32) (truncf .bf16 Wb bitsLt_bf16_f32) b1 (truncf .bf16 W2 bitsLt_bf16_f32) b2 n d
      = Spec.nodeSplit g s Wa Wb b1 W2 b2 n d := rfl

/-- THE TWO PROGRAMS COMPUTE ONE FUNCTION of the sixteen arguments. -/
theorem bridge (a0 : FVec Ideal S50000x128 .f32) (a1 : FVec Ideal S800000x1 .f32) (a2 : (⟨S800000, .i32⟩ : BufTy).Contents (Elt Ideal)) (a3 : (⟨S800000, .i32⟩ : BufTy).Contents (Elt Ideal)) (a4 : FVec Ideal S257x256 .f32) (a5 : FVec Ideal S256 .f32) (a6 : FVec Ideal S256x256 .f32) (a7 : FVec Ideal S256 .f32) (a8 : FVec Ideal S257x256 .f32) (a9 : FVec Ideal S256 .f32) (a10 : FVec Ideal S256x256 .f32) (a11 : FVec Ideal S256 .f32) (a12 : FVec Ideal S384x256 .f32) (a13 : FVec Ideal S256 .f32) (a14 : FVec Ideal S256x128 .f32) (a15 : FVec Ideal S128 .f32) :
    kernOut a0 a1 a2 a3 a4 a5 a6 a7 a8 a9 a10 a11 a12 a13 a14 a15 = Cert.RefValue.refOut a0 a1 a2 a3 a4 a5 a6 a7 a8 a9 a10 a11 a12 a13 a14 a15 := by
  funext i
  unfold kernOut Cert.RefValue.refOut
  refine Eq.trans ?_ (Law.node_law _ a0 a12 a13 a14 a15 Cert.ReferenceIdeal.Gen.concatenates_S50000x256_S50000x128_S50000x384_d1
    slices_S384x256_S256x256_0_0 slices_S384x256_S128x256_256_0 (i 0) (i 1)).symm
  refine (node_formats _ a0 _ _ a13 a14 a15 (i 0) (i 1)).trans ?_
  rw [agg_eq]

end Cert.KernelValue

end
-- ==== Proof.lean ====
/-
  One message-passing step of a graph network: the tiled kernel program against the plain reference.

  Both programs gather, for every edge, the state rows of its two end nodes; run a two-layer perceptron with 256 hidden
  units on (sender, receiver, feature) for the forward message and on (receiver, sender, feature) with other weights for
  the reverse message; sum the forward messages onto the receiving node and the reverse ones onto the sending node; and
  add to every node's state a second perceptron of (aggregate, state).

  The reference lays the parts of each perceptron's input side by side and multiplies once by the whole first weight
  matrix. The kernel program never joins them: its host side cuts the weight matrix into the groups of rows that meet
  each part, and each kernel body adds the partial products — for an edge two 128-wide products and the feature times one
  weight row, for a node a 256-wide and a 128-wide product — then the bias, the rectifier, and the second layer. On the
  extended reals, where every change of float format is the identity, a sum over the joined row cut after each part IS
  the sum of the partial sums, in the kernel's own grouping; nothing else separates the two programs, and no value needs
  to be finite.

  The kernel program's value is read off its run: the last boundary's contents at the result buffer, the node region's
  output array as one function of that region's entry arrays (its ten row blocks tile the array), the aggregate among
  them from the edge region's two output arrays (two hundred row blocks each), and those from the gathers and the
  groups of rows. The reference's value is its run's term with its three perceptrons read entry by entry. The gathers
  and the per-node sums are the same host operations on both sides and are never opened.
-/
import proofs.«116389_j22874995818875_2_alg».proof.Defs
import proofs.«116389_j22874995818875_2_alg».proof.Proof.Gen.Kernel
import proofs.«116389_j22874995818875_2_alg».proof.Proof.Gen.Kernel.Frame
import proofs.«116389_j22874995818875_2_alg».proof.Proof.Gen.KernelIdeal
import proofs.«116389_j22874995818875_2_alg».proof.Proof.Gen.KernelIdeal.Frame
import proofs.«116389_j22874995818875_2_alg».proof.Proof.Gen.ReferenceIdeal
import proofs.«116389_j22874995818875_2_alg».proof.Proof.Gen.ReferenceIdeal.Run
import proofs.«116389_j22874995818875_2_alg».proof.Proof.Gen.Pre_finite_inputs
import proofs.«116389_j22874995818875_2_alg».proof.Proof.KernelRun
import proofs.«116389_j22874995818875_2_alg».proof.Proof.KernelValue
import proofs.«116389_j22874995818875_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_kernel : Cert.frame_Kernel :=
  fun m ρ _ => Cert.Kernel.Gen.frame m ρ

/-- So does the kernel program read on the extended reals. -/
theorem frame_kernel_ideal : Cert.frame_KernelIdeal :=
  fun m ρ _ => Cert.KernelIdeal.Gen.frame m ρ

/-- And the reference: its run with the result dropped. -/
theorem frame_reference : Cert.frame_ReferenceIdeal :=
  fun m ρ _ => (θ_run Cert.ReferenceIdeal.defs _ _).mono (fun _ h c => (h c).2)
    (Cert.ReferenceIdeal.Value.run (F := Ideal) m ρ)

/-- From memories that agree on the sixteen arguments both programs end with the result array at one function of them:
    the kernel program's run names its result buffer's contents, which compose to `kernOut`; the reference's run ends at
    its term, which is `refOut`; the two functions are equal. -/
theorem algebraic : Cert.algebraic_KernelIdeal_ReferenceIdeal := by
  intro m ρ m' ρ' _ hagree
  refine ⟨fun c => Cert.KernelValue.kernOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelValue.kernel_value m ρ c), (h c).2⟩)
      (Cert.KernelIdeal.GenP.run_result (F := Ideal) m ρ)
  · refine (θ_run Cert.ReferenceIdeal.defs _ _).mono (fun r h c => ⟨?_, (h c).2⟩)
      (Cert.ReferenceIdeal.Value.run (F := Ideal) m' ρ')
    refine (h c).1.trans ?_
    refine (Cert.RefValue.ref_result m' c).trans ?_
    obtain ⟨e0, e1, e2, e3, e4, e5, e6, e7, e8, e9, e10, e11, e12, e13, e14, e15⟩ := hagree c
    rw [e0, e1, e2, e3, e4, e5, e6, e7, e8, e9, e10, e11, e12, e13, e14, e15]
    exact (Cert.KernelValue.bridge _ _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
